-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S64x262144 : Shape := ⟨2, ![64, 262144]⟩
abbrev S64 : Shape := ⟨1, ![64]⟩
abbrev S262144 : Shape := ⟨1, ![262144]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S64x262144 : S_.BroadcastsInDim S64x262144 (![] : Fin 0 → Fin S64x262144.rank)
  reducesTo_S64x262144_S_d0_1 : S64x262144.ReducesTo [0, 1] S_
  bcast_S_S64 : S_.BroadcastsInDim S64 (![] : Fin 0 → Fin S64.rank)
  reducesTo_S64_S_d0 : S64.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S32x64 .f32) (main_arg1 : FVec F S64x262144 .f32) (main_arg2 : FVec F S64 .f32) (main_arg3 : FVec F S262144 .f32) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S64x262144 .f32 := Host.absf main_arg1
  let main_cst_0 : FVec F S_ .f32 := constant S_ .f32 0x7F800000#32
  let main_v5 : FVec F S64x262144 .f32 := broadcastInDim S64x262144 ![] bcast_S_S64x262144 main_cst_0
  let main_v6 : IVec S64x262144 1 := cmpf .olt main_v4 main_v5
  let main_c_1 : IVec S_ 1 := constantI S_ 1 1#1
  let main_v7 : IVec S_ 1 := (fun x v => Host.reduce IntOp.andi x v reducesTo_S64x262144_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S32x64 : Shape := ⟨2, ![32, 64]⟩
abbrev S64x262144 : Shape := ⟨2, ![64, 262144]⟩
abbrev S64 : Shape := ⟨1, ![64]⟩
abbrev S262144 : Shape := ⟨1, ![262144]⟩
abbrev S32x8x64x64x64 : Shape := ⟨5, ![32, 8, 64, 64, 64]⟩
abbrev S64x16384 : Shape := ⟨2, ![64, 16384]⟩
abbrev S16384 : Shape := ⟨1, ![16384]⟩
abbrev S32x1x16x64x64 : Shape := ⟨5, ![32, 1, 16, 64, 64]⟩
abbrev S1x64 : Shape := ⟨2, ![1, 64]⟩
abbrev S32x16384 : Shape := ⟨2, ![32, 16384]⟩
abbrev S1x16384 : Shape := ⟨2, ![1, 16384]⟩
abbrev S32x16x32x32 : Shape := ⟨4, ![32, 16, 32, 32]⟩
abbrev S32x16x16x64 : Shape := ⟨4, ![32, 16, 16, 64]⟩
abbrev S32x1x16x16x64 : Shape := ⟨5, ![32, 1, 16, 16, 64]⟩
abbrev S32x16x32x16 : Shape := ⟨4, ![32, 16, 32, 16]⟩
abbrev S32x1x16x32x16 : Shape := ⟨5, ![32, 1, 16, 32, 16]⟩
abbrev S32x1x16x32x32 : Shape := ⟨5, ![32, 1, 16, 32, 32]⟩
abbrev S32x16x64x64 : Shape := ⟨4, ![32, 16, 64, 64]⟩

abbrev nBuf : Space → Nat
  | .hbm => 5
  | .vmem => 8
  | .smem => 0
  | _ => 0

abbrev bufTy : (tb : Table) → Fin (tcTables nBuf tb) → BufTy
  | .hbm, ⟨0, _⟩ => ⟨S32x64, .f32⟩
  | .hbm, ⟨1, _⟩ => ⟨S64x262144, .f32⟩
  | .hbm, ⟨2, _⟩ => ⟨S64, .f32⟩
  | .hbm, ⟨3, _⟩ => ⟨S262144, .f32⟩
  | .hbm, ⟨4, _⟩ => ⟨S32x8x64x64x64, .f32⟩
  | .local _ .vmem, ⟨0, _⟩ => ⟨S32x64, .f32⟩
  | .local _ .vmem, ⟨1, _⟩ => ⟨S64, .f32⟩
  | .local _ .vmem, ⟨2, _⟩ => ⟨S64x16384, .f32⟩
  | .local _ .vmem, ⟨3, _⟩ => ⟨S64x16384, .f32⟩
  | .local _ .vmem, ⟨4, _⟩ => ⟨S16384, .f32⟩
  | .local _ .vmem, ⟨5, _⟩ => ⟨S16384, .f32⟩
  | .local _ .vmem, ⟨6, _⟩ => ⟨S32x1x16x64x64, .f32⟩
  | .local _ .vmem, ⟨7, _⟩ => ⟨S32x1x16x64x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c1_i32 : BitVec 32 := 1#32
  let v0 : BitVec 1 := Scalar.cmpi .sge arg1 c1_i32
  let c2_i32 : BitVec 32 := 2#32
  let v1 : BitVec 1 := Scalar.cmpi .sle arg1 c2_i32
  let v2 : BitVec 1 := Scalar.andi v0 v1
  let v3 : BitVec 32 := Scalar.extui v2
  let c0_i32 : BitVec 32 := 0#32
  let v4 : BitVec 1 := Scalar.cmpi .ne v3 c0_i32
  v4

def k0_cond2 (i : grid0.Coords) : BitVec 1 :=
  let arg1 : BitVec 32 := BitVec.ofNat 32 (i 1).val
  let c1_i32 : BitVec 32 := 1#32
  let v0 : BitVec 1 := Scalar.cmpi .sge arg1 c1_i32
  let c2_i32 : BitVec 32 := 2#32
  let v1 : BitVec 1 := Scalar.cmpi .sle arg1 c2_i32
  let v2 : BitVec 1 := Scalar.andi v0 v1
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c2_i32 : BitVec 32 := 2#32
  let v3 : BitVec 32 := Scalar.muli arg0 c2_i32
  let v4 : BitVec 32 := Scalar.addi v3 v2
  let c0_i32_1 : BitVec 32 := 0#32
  let c0_i32_2 : BitVec 32 := 0#32
  ![c0_i32_1.toNat, v4.toNat]

def cc0_transform_3 (i : grid0.Coords) : Fin 1 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c2_i32 : BitVec 32 := 2#32
  let v3 : BitVec 32 := Scalar.muli arg0 c2_i32
  let v4 : BitVec 32 := Scalar.addi v3 v2
  let c0_i32_1 : BitVec 32 := 0#32
  ![v4.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1x16x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S32x64 : S1x64.Broadcasts S32x64
  bitsLt_bf16_f32 : FTy.bits .bf16 < FTy.bits .f32
  inb_S64x16384_S64x16384_0_0 : ∀ a, (![0, 0] : Fin 2 → Nat) a + S64x16384.size a ≤ S64x16384.size a
  h_S64x16384 : 0 < S64x16384.numel
  inb_S16384_S16384_0 : ∀ a, (![0] : Fin 1 → Nat) a + S16384.size a ≤ S16384.size a
  h_S16384 : 0 < S16384.numel
  shapeCasts_S16384_S1x16384 : S16384.ShapeCasts S1x16384
  broadcasts_S1x16384_S32x16384 : S1x16384.Broadcasts S32x16384
  shapeCasts_S32x16384_S32x16x32x32 : S32x16384.ShapeCasts S32x16x32x32
  inb_S32x1x16x64x64_S32x1x16x16x64_0_0_0_0_0 : ∀ a, (![0, 0, 0, 0, 0] : Fin 5 → Nat) a + S32x1x16x16x64.size a ≤ S32x1x16x64x64.size a
  h_S32x1x16x16x64 : 0 < S32x1x16x16x64.numel
  shapeCasts_S32x1x16x16x64_S32x16x16x64 : S32x1x16x16x64.ShapeCasts S32x16x16x64
  shapeCasts_S32x16x16x64_S32x1x16x16x64 : S32x16x16x64.ShapeCasts S32x1x16x16x64
  inb_S32x1x16x64x64_S32x1x16x16x64_0_0_0_48_0 : ∀ a, (![0, 0, 0, 48, 0] : Fin 5 → Nat) a + S32x1x16x16x64.size a ≤ S32x1x16x64x64.size a
  inb_S32x1x16x64x64_S32x1x16x32x16_0_0_0_16_0 : ∀ a, (![0, 0, 0, 16, 0] : Fin 5 → Nat) a + S32x1x16x32x16.size a ≤ S32x1x16x64x64.size a
  h_S32x1x16x32x16 : 0 < S32x1x16x32x16.numel
  shapeCasts_S32x1x16x32x16_S32x16x32x16 : S32x1x16x32x16.ShapeCasts S32x16x32x16
  shapeCasts_S32x16x32x16_S32x1x16x32x16 : S32x16x32x16.ShapeCasts S32x1x16x32x16
  inb_S32x1x16x64x64_S32x1x16x32x16_0_0_0_16_48 : ∀ a, (![0, 0, 0, 16, 48] : Fin 5 → Nat) a + S32x1x16x32x16.size a ≤ S32x1x16x64x64.size a
  inb_S32x1x16x64x64_S32x1x16x32x32_0_0_0_16_16 : ∀ a, (![0, 0, 0, 16, 16] : Fin 5 → Nat) a + S32x1x16x32x32.size a ≤ S32x1x16x64x64.size a
  h_S32x1x16x32x32 : 0 < S32x1x16x32x32.numel
  shapeCasts_S32x1x16x32x32_S32x16x32x32 : S32x1x16x32x32.ShapeCasts S32x16x32x32
  shapeCasts_S32x16x32x32_S32x1x16x32x32 : S32x16x32x32.ShapeCasts S32x1x16x32x32
  inb_S32x1x16x64x64_S32x1x16x64x64_0_0_0_0_0 : ∀ a, (![0, 0, 0, 0, 0] : Fin 5 → Nat) a + S32x1x16x64x64.size a ≤ S32x1x16x64x64.size a
  h_S32x1x16x64x64 : 0 < S32x1x16x64x64.numel
  shapeCasts_S32x1x16x64x64_S32x16x64x64 : S32x1x16x64x64.ShapeCasts S32x16x64x64
  shapeCasts_S32x16x64x64_S32x1x16x64x64 : S32x16x64x64.ShapeCasts S32x1x16x64x64
  dot_S32x64_S64x16384_S32x16384_1_0_0_1_n_n_wf : DotDims.WF S32x64 S64x16384 S32x16384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S32x64.size a
  hwx0_0 : ∀ i : grid0.Coords, EltTy.bits .f32 = 32 ∨ (Rect.block (s := S32x64) S32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x262144.size a
  hwx0_2 : ∀ i : grid0.Coords, EltTy.bits .f32 = 32 ∨ (Rect.block (s := S64x262144) S64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384.size a ≤ S262144.size a
  hwx0_3 : ∀ i : grid0.Coords, EltTy.bits .f32 = 32 ∨ (Rect.block (s := S262144) S16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1x16x64x64.size a ≤ S32x8x64x64x64.size a
  hwx0_4 : ∀ i : grid0.Coords, EltTy.bits .f32 = 32 ∨ (Rect.block (s := S32x8x64x64x64) S32x1x16x64x64.size (cc0_transform_4 i) (hinb0_4 i)).WholeWords (EltTy.packing .f32)

variable [Facts₀]

def dot_S32x64_S64x16384_S32x16384_1_0_0_1_n_n : DotDims S32x64 S64x16384 S32x16384 where
  lhsContracting := [1]
  rhsContracting := [0]
  lhsNonContracting := [0]
  rhsNonContracting := [1]
  lhsBatch := []
  rhsBatch := []
  wf := dot_S32x64_S64x16384_S32x16384_1_0_0_1_n_n_wf

abbrev win0_0 : Pipeline.Window sig grid0 :=
  Pipeline.Window.ofSpec (Memref.whole main_arg0) S32x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x1x16x64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S32x64 : Shape := ⟨2, ![32, 64]⟩
abbrev S64x262144 : Shape := ⟨2, ![64, 262144]⟩
abbrev S64 : Shape := ⟨1, ![64]⟩
abbrev S262144 : Shape := ⟨1, ![262144]⟩
abbrev S1x64 : Shape := ⟨2, ![1, 64]⟩
abbrev S32x262144 : Shape := ⟨2, ![32, 262144]⟩
abbrev S1x262144 : Shape := ⟨2, ![1, 262144]⟩
abbrev S32x8x32x32x32 : Shape := ⟨5, ![32, 8, 32, 32, 32]⟩
abbrev S_ : Shape := ⟨0, ![]⟩
abbrev S32x8x64x64x64 : Shape := ⟨5, ![32, 8, 64, 64, 64]⟩
abbrev S1 : Shape := ⟨1, ![1]⟩
abbrev S3 : Shape := ⟨1, ![3]⟩

abbrev nBuf : Space → Nat
  | .hbm => 22
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S64x262144, .f32⟩
  | .hbm, ⟨2, _⟩ => ⟨S64, .f32⟩
  | .hbm, ⟨3, _⟩ => ⟨S262144, .f32⟩
  | .hbm, ⟨4, _⟩ => ⟨S1x64, .f32⟩
  | .hbm, ⟨5, _⟩ => ⟨S32x64, .f32⟩
  | .hbm, ⟨6, _⟩ => ⟨S32x64, .f32⟩
  | .hbm, ⟨7, _⟩ => ⟨S32x262144, .f32⟩
  | .hbm, ⟨8, _⟩ => ⟨S1x262144, .f32⟩
  | .hbm, ⟨9, _⟩ => ⟨S32x262144, .f32⟩
  | .hbm, ⟨10, _⟩ => ⟨S32x262144, .f32⟩
  | .hbm, ⟨11, _⟩ => ⟨S32x8x32x32x32, .f32⟩
  | .hbm, ⟨12, _⟩ => ⟨S_, .f32⟩
  | .hbm, ⟨13, _⟩ => ⟨S32x8x64x64x64, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S3, .i32⟩
  | .hbm, ⟨21, _⟩ => ⟨S32x8x64x64x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S262144_S1x262144_1 : S262144.BroadcastsInDim S1x262144 (![1] : Fin 1 → Fin S1x262144.rank)
  bcast_S1x262144_S32x262144_0_1 : S1x262144.BroadcastsInDim S32x262144 (![0, 1] : Fin 2 → Fin S32x262144.rank)
  shapeCasts_S32x262144_S32x8x32x32x32 : S32x262144.ShapeCasts S32x8x32x32x32
  bcast_S_S32x8x64x64x64 : S_.BroadcastsInDim S32x8x64x64x64 (![] : Fin 0 → Fin S32x8x64x64x64.rank)
  bcast_S_S1 : S_.BroadcastsInDim S1 (![] : Fin 0 → Fin S1.rank)
  concatenates_S1_S1_S1_S3_d0 : Shape.Concatenates [S1, S1, S1] S3 0
  dot_S32x64_S64x262144_S32x262144_1_0_0_1_n_n_wf : DotDims.WF S32x64 S64x262144 S32x262144 [1] [0] [0] [1] [] []
  scatter_S32x8x64x64x64_S3_S32x8x32x32x32_01234_n_234_0_wf : ScatterDims.WF S32x8x64x64x64 S3 S32x8x32x32x32 [0, 1, 2, 3, 4] [] [2, 3, 4] 0

variable [Facts₀]

def dot_S32x64_S64x262144_S32x262144_1_0_0_1_n_n : DotDims S32x64 S64x262144 S32x262144 where
  lhsContracting := [1]
  rhsContracting := [0]
  lhsNonContracting := [0]
  rhsNonContracting := [1]
  lhsBatch := []
  rhsBatch := []
  wf := dot_S32x64_S64x262144_S32x262144_1_0_0_1_n_n_wf
def scatter_S32x8x64x64x64_S3_S32x8x32x32x32_01234_n_234_0 : ScatterDims S32x8x64x64x64 S3 S32x8x32x32x32 where
  updateWindowDims := [0, 1, 2, 3, 4]
  insertedWindowDims := []
  scatterDimsToOperandDims := [2, 3, 4]
  indexVectorDim := 0
  wf := scatter_S32x8x64x64x64_S3_S32x8x32x32x32_01234_n_234_0_wf

class Facts : Prop extends Facts₀ where

variable [Facts]
-- ==== Proof.BitsPoints.lean ====
/-
  The grid is 8 channels by 4 depth tiles of 16 planes; point `t` is channel `t / 4`, depth tile `t % 4`.
  The core cube occupies planes 16..47 of each axis, so a depth tile meets it exactly when it is tile 1 or
  tile 2. At such a point the body computes the projection and places it in the middle of a zero block; at
  the other points it writes a zero block. The two branch conditions of the body are each other's negation
  on the grid, so at every point exactly one branch stores, and the output block is stored whole either way.
-/
import proofs.«182236_j807453852264_2_alg».proof.Proof.Gen.Kernel.Frame
import proofs.«182236_j807453852264_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch (the depth tile meets the core cube) is taken exactly at depth tiles 1 and 2. -/
theorem core_iff : ∀ t : Fin cfg0.N, k0_cond1 (grid0.coords t) = 1#1 ↔ (t.val % 4 = 1 ∨ t.val % 4 = 2) :=
  (by decide +kernel : ∀ t : Fin grid0.N, k0_cond1 (grid0.coords t) = 1#1 ↔ (t.val % 4 = 1 ∨ t.val % 4 = 2))

/-- The second branch (a zero block) is taken exactly where the first is not. -/
theorem rim_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- Hence the output window is stored into at every point of the grid. -/
theorem out_live : ∀ t : Fin cfg0.N, cfg0.idle 4 (grid0.coords t) = false :=
  (by decide +kernel : ∀ t : Fin grid0.N, idle0 4 (grid0.coords t) = false)

/-- One staging buffer of the output window, through which a block's contents are stated. -/
abbrev outView : View sig .tc .vmem S32x1x16x64x64 .f32 := (Memref.whole cc0_stg4_0 : Memref sig .tc .vmem S32x1x16x64x64 .f32).view

/-- Each window's current staging memref at point `t`, and that it is a whole buffer. -/
abbrev ms0 (t : Fin cfg0.N) : Memref sig .tc .vmem S32x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x16384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1x16x64x64 .f32 := win0_4.stage (cfg0.slots t 4)
abbrev hs4 (t : Fin cfg0.N) : (ms4 t).IsWhole := hstage0_4 ((cfg0.slots t 4).cast nbuf0_4)

end Cert.Kernel.Body

end
-- ==== Proof.BitsCoreRun.lean ====
/-
  The body at a point whose depth tile meets the core cube. It loads the four input blocks, forms the
  projection (rows of `z` scaled by `L`, times the block of `U`, plus the block of `mu`), and stores five
  rectangles into the output block: zeros on the two bands of rows 0..15 and 48..63, zeros on the two bands
  of columns 0..15 and 48..63 of the middle rows, and the projection on the middle 32 by 32 square. The list
  of stored pieces is what the run finds; the inputs come back as they were.
-/
import proofs.«182236_j807453852264_2_alg».proof.Proof.BitsPoints

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block at such a point, with the proof that from the
    four input buffers at any contents and the output buffer at anything, the body runs to the continuation
    with the inputs unchanged and the output buffer at those pieces written. -/
noncomputable def runCore (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) :
    { L : List (View.Piece (Elt F) S32x1x16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Body

end
-- ==== Proof.BitsRimRun.lean ====
/-
  The body at a point whose depth tile misses the core cube: one store of a zero block over the whole
  output block. The inputs are not read and come back as they were.
-/
import proofs.«182236_j807453852264_2_alg».proof.Proof.BitsPoints

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block at such a point, with the proof that from the
    four input buffers at any contents and the output buffer at anything, the body runs to the continuation
    with the inputs unchanged and the output buffer at those pieces written. -/
noncomputable def runRim (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) :
    { L : List (View.Piece (Elt F) S32x1x16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Body

end
-- ==== Proof.BitsBody.lean ====
/-
  The pipeline's proof data and its run. After the body at point `t` each input buffer still holds its
  block, and the output buffer holds the pieces of the case the point is in, read back: the five rectangles
  of the core case when the depth tile is 1 or 2, the one zero block otherwise. Either list tiles the block,
  so the contents do not depend on what the buffer held before. Every point writes its block back, so the
  output buffer is handed to the body at nothing it needs to know. From the obligation at every point the
  launch theorem gives the run of the whole program, with every windowed array at what the proof data
  computes and the argument arrays unchanged.
-/
import proofs.«182236_j807453852264_2_alg».proof.Proof.BitsCoreRun
import proofs.«182236_j807453852264_2_alg».proof.Proof.BitsRimRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five rectangles of the core case tile the output block: cut into 16 by 16 squares of rows and columns,
    they are the sixteen squares of the 64 by 64 plane, each once. -/
theorem coverCore (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) (y : S32x1x16x64x64.Idx) :
    ∃ pc ∈ (runCore c i arg2 harg2 arg3 harg3 arg4 harg4 arg5 harg5 arg6 harg6 hc1 hc2 x0 x1 x2 x3).1, y ∈ pc.1.set :=
  View.cover_of_tiledBy (runCore c i arg2 harg2 arg3 harg3 arg4 harg4 arg5 harg5 arg6 harg6 hc1 hc2 x0 x1 x2 x3).1 ![32, 1, 16, 16, 16] (by sl_kernel_rfl) y

/-- What the core case leaves in the output block: its pieces read back. -/
def outCore (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) : Vec F S32x1x16x64x64 .f32 :=
  outView.read (Elt F) (outView.writes (Elt F) outView.junk (runCore c i arg2 harg2 arg3 harg3 arg4 harg4 arg5 harg5 arg6 harg6 hc1 hc2 x0 x1 x2 x3).1)

/-- The one store of the other case covers the output block. -/
theorem coverRim (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) (y : S32x1x16x64x64.Idx) :
    ∃ pc ∈ (runRim c i arg2 harg2 arg3 harg3 arg4 harg4 arg5 harg5 arg6 harg6 hc1 hc2 x0 x1 x2 x3).1, y ∈ pc.1.set :=
  View.cover_of_tiledL (runRim c i arg2 harg2 arg3 harg3 arg4 harg4 arg5 harg5 arg6 harg6 hc1 hc2 x0 x1 x2 x3).1 S32x1x16x64x64.size (by sl_kernel_rfl) y

/-- What the other case leaves in the output block. -/
def outRim (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) : Vec F S32x1x16x64x64 .f32 :=
  outView.read (Elt F) (outView.writes (Elt F) outView.junk (runRim c i arg2 harg2 arg3 harg3 arg4 harg4 arg5 harg5 arg6 harg6 hc1 hc2 x0 x1 x2 x3).1)

/-- What the output block holds after the body at point `t`: the case its depth tile selects, at the
    point's input blocks. -/
def outAt (c : Dev nD) (t : Fin cfg0.N) : Vec F S32x1x16x64x64 .f32 :=
  if h : t.val % 4 = 1 ∨ t.val % 4 = 2 then
    outCore c (grid0.coords t) (ms0 t) (hs0 t) (ms1 t) (hs1 t) (ms2 t) (hs2 t) (ms3 t) (hs3 t) (ms4 t) (hs4 t) ((core_iff t).mpr h) (fun h2 => (rim_iff t).mp h2 ((core_iff t).mpr h)) (iblk m c 0 t) (iblk m c 1 t) (iblk m c 2 t) (iblk m c 3 t)
  else
    outRim c (grid0.coords t) (ms0 t) (hs0 t) (ms1 t) (hs1 t) (ms2 t) (hs2 t) (ms3 t) (hs3 t) (ms4 t) (hs4 t) (fun h1 => h ((core_iff t).mp h1)) ((rim_iff t).mpr fun h1 => h ((core_iff t).mp h1)) (iblk m c 0 t) (iblk m c 1 t) (iblk m c 2 t) (iblk m c 3 t)

theorem outAt_core (c : Dev nD) (t : Fin cfg0.N) (h : t.val % 4 = 1 ∨ t.val % 4 = 2) :
    outAt m c t = outCore c (grid0.coords t) (ms0 t) (hs0 t) (ms1 t) (hs1 t) (ms2 t) (hs2 t) (ms3 t) (hs3 t) (ms4 t) (hs4 t) ((core_iff t).mpr h) (fun h2 => (rim_iff t).mp h2 ((core_iff t).mpr h)) (iblk m c 0 t) (iblk m c 1 t) (iblk m c 2 t) (iblk m c 3 t) :=
  dif_pos h

theorem outAt_rim (c : Dev nD) (t : Fin cfg0.N) (h : ¬ (t.val % 4 = 1 ∨ t.val % 4 = 2)) :
    outAt m c t = outRim c (grid0.coords t) (ms0 t) (hs0 t) (ms1 t) (hs1 t) (ms2 t) (hs2 t) (ms3 t) (hs3 t) (ms4 t) (hs4 t) (fun h1 => h ((core_iff t).mp h1)) ((rim_iff t).mpr fun h1 => h ((core_iff t).mp h1)) (iblk m c 0 t) (iblk m c 1 t) (iblk m c 2 t) (iblk m c 3 t) :=
  dif_neg h

/-- The proof data of the one pipeline on core `c`: the arrays as launched; after the body each input's buffer
    at its block and the output's at `outAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the depth tile says which case the point is
    in; that case's run applies; its pieces cover the block, so the buffer ends at them read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h : t.val % 4 = 1 ∨ t.val % 4 = 2
  · rw [outAt_core m c t h]
    unfold outCore
    iintro ⟨HΦ, Ho, ⟨%d0, H0⟩, ⟨%d1, H1⟩, ⟨%d2, H2⟩, ⟨%d3, H3⟩, ⟨%d4, H4⟩⟩
    iapply ((runCore c (grid0.coords t) _ _ _ _ _ _ _ _ _ _ ((core_iff t).mpr h) (fun h2 => (rim_iff t).mp h2 ((core_iff t).mpr h)) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCore c _ _ _ _ _ _ _ _ _ _ _ _ _ _ _ _ _)
  · rw [outAt_rim m c t h]
    unfold outRim
    iintro ⟨HΦ, Ho, ⟨%d0, H0⟩, ⟨%d1, H1⟩, ⟨%d2, H2⟩, ⟨%d3, H3⟩, ⟨%d4, H4⟩⟩
    iapply ((runRim c (grid0.coords t) _ _ _ _ _ _ _ _ _ _ (fun h1 => h ((core_iff t).mp h1)) ((rim_iff t).mpr fun h1 => h ((core_iff t).mp h1)) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverRim c _ _ _ _ _ _ _ _ _ _ _ _ _ _ _ _ _)

/-- The body obligation at every point: the output window is stored into at every point, so its buffer
    is returned at what the body left. -/
theorem body_obligation (c : Dev nD) : BodyObligation (dats (F := F) m 0 c) (defs₀ (F := F)) Variants.none () Set.univ := fun t => by
  rw [bigSep_W0, bigSep_W0]
  have hl : idle0 4 (grid0.coords t) = false := out_live t
  simp only [hl]
  exact sound_body m c t

set_option backward.isDefEq.respectTransparency.types false in
/-- Every weakly fair execution of the program terminates, and in every final state every windowed array
    is at what the proof data computes and every other buffer as launched. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealPoints.lean ====
/-
  The grid is 8 channels by 4 depth tiles of 16 planes; point `t` is channel `t / 4`, depth tile `t % 4`.
  The core cube occupies planes 16..47 of each axis, so a depth tile meets it exactly when it is tile 1 or
  tile 2. At such a point the body computes the projection and places it in the middle of a zero block; at
  the other points it writes a zero block. The two branch conditions of the body are each other's negation
  on the grid, so at every point exactly one branch stores, and the output block is stored whole either way.
-/
import proofs.«182236_j807453852264_2_alg».proof.Proof.Gen.KernelIdeal.Frame
import proofs.«182236_j807453852264_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch (the depth tile meets the core cube) is taken exactly at depth tiles 1 and 2. -/
theorem core_iff : ∀ t : Fin cfg0.N, k0_cond1 (grid0.coords t) = 1#1 ↔ (t.val % 4 = 1 ∨ t.val % 4 = 2) :=
  (by decide +kernel : ∀ t : Fin grid0.N, k0_cond1 (grid0.coords t) = 1#1 ↔ (t.val % 4 = 1 ∨ t.val % 4 = 2))

/-- The second branch (a zero block) is taken exactly where the first is not. -/
theorem rim_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- Hence the output window is stored into at every point of the grid. -/
theorem out_live : ∀ t : Fin cfg0.N, cfg0.idle 4 (grid0.coords t) = false :=
  (by decide +kernel : ∀ t : Fin grid0.N, idle0 4 (grid0.coords t) = false)

/-- One staging buffer of the output window, through which a block's contents are stated. -/
abbrev outView : View sig .tc .vmem S32x1x16x64x64 .f32 := (Memref.whole cc0_stg4_0 : Memref sig .tc .vmem S32x1x16x64x64 .f32).view

/-- Each window's current staging memref at point `t`, and that it is a whole buffer. -/
abbrev ms0 (t : Fin cfg0.N) : Memref sig .tc .vmem S32x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x16384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1x16x64x64 .f32 := win0_4.stage (cfg0.slots t 4)
abbrev hs4 (t : Fin cfg0.N) : (ms4 t).IsWhole := hstage0_4 ((cfg0.slots t 4).cast nbuf0_4)

end Cert.KernelIdeal.Body

end
-- ==== Proof.IdealCoreRun.lean ====
/-
  The body at a point whose depth tile meets the core cube. It loads the four input blocks, forms the
  projection (rows of `z` scaled by `L`, times the block of `U`, plus the block of `mu`), and stores five
  rectangles into the output block: zeros on the two bands of rows 0..15 and 48..63, zeros on the two bands
  of columns 0..15 and 48..63 of the middle rows, and the projection on the middle 32 by 32 square. The list
  of stored pieces is what the run finds; the inputs come back as they were.
-/
import proofs.«182236_j807453852264_2_alg».proof.Proof.IdealPoints

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block at such a point, with the proof that from the
    four input buffers at any contents and the output buffer at anything, the body runs to the continuation
    with the inputs unchanged and the output buffer at those pieces written. -/
noncomputable def runCore (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) :
    { L : List (View.Piece (Elt F) S32x1x16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Body

end
-- ==== Proof.IdealRimRun.lean ====
/-
  The body at a point whose depth tile misses the core cube: one store of a zero block over the whole
  output block. The inputs are not read and come back as they were.
-/
import proofs.«182236_j807453852264_2_alg».proof.Proof.IdealPoints

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block at such a point, with the proof that from the
    four input buffers at any contents and the output buffer at anything, the body runs to the continuation
    with the inputs unchanged and the output buffer at those pieces written. -/
noncomputable def runRim (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) :
    { L : List (View.Piece (Elt F) S32x1x16x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Body

end
-- ==== Proof.IdealBody.lean ====
/-
  The pipeline's proof data and its run. After the body at point `t` each input buffer still holds its
  block, and the output buffer holds the pieces of the case the point is in, read back: the five rectangles
  of the core case when the depth tile is 1 or 2, the one zero block otherwise. Either list tiles the block,
  so the contents do not depend on what the buffer held before. Every point writes its block back, so the
  output buffer is handed to the body at nothing it needs to know. From the obligation at every point the
  launch theorem gives the run of the whole program, with every windowed array at what the proof data
  computes and the argument arrays unchanged.
-/
import proofs.«182236_j807453852264_2_alg».proof.Proof.IdealCoreRun
import proofs.«182236_j807453852264_2_alg».proof.Proof.IdealRimRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five rectangles of the core case tile the output block: cut into 16 by 16 squares of rows and columns,
    they are the sixteen squares of the 64 by 64 plane, each once. -/
theorem coverCore (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) (y : S32x1x16x64x64.Idx) :
    ∃ pc ∈ (runCore c i arg2 harg2 arg3 harg3 arg4 harg4 arg5 harg5 arg6 harg6 hc1 hc2 x0 x1 x2 x3).1, y ∈ pc.1.set :=
  View.cover_of_tiledBy (runCore c i arg2 harg2 arg3 harg3 arg4 harg4 arg5 harg5 arg6 harg6 hc1 hc2 x0 x1 x2 x3).1 ![32, 1, 16, 16, 16] (by sl_kernel_rfl) y

/-- What the core case leaves in the output block: its pieces read back. -/
def outCore (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) : Vec F S32x1x16x64x64 .f32 :=
  outView.read (Elt F) (outView.writes (Elt F) outView.junk (runCore c i arg2 harg2 arg3 harg3 arg4 harg4 arg5 harg5 arg6 harg6 hc1 hc2 x0 x1 x2 x3).1)

/-- The one store of the other case covers the output block. -/
theorem coverRim (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) (y : S32x1x16x64x64.Idx) :
    ∃ pc ∈ (runRim c i arg2 harg2 arg3 harg3 arg4 harg4 arg5 harg5 arg6 harg6 hc1 hc2 x0 x1 x2 x3).1, y ∈ pc.1.set :=
  View.cover_of_tiledL (runRim c i arg2 harg2 arg3 harg3 arg4 harg4 arg5 harg5 arg6 harg6 hc1 hc2 x0 x1 x2 x3).1 S32x1x16x64x64.size (by sl_kernel_rfl) y

/-- What the other case leaves in the output block. -/
def outRim (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) : Vec F S32x1x16x64x64 .f32 :=
  outView.read (Elt F) (outView.writes (Elt F) outView.junk (runRim c i arg2 harg2 arg3 harg3 arg4 harg4 arg5 harg5 arg6 harg6 hc1 hc2 x0 x1 x2 x3).1)

/-- What the output block holds after the body at point `t`: the case its depth tile selects, at the
    point's input blocks. -/
def outAt (c : Dev nD) (t : Fin cfg0.N) : Vec F S32x1x16x64x64 .f32 :=
  if h : t.val % 4 = 1 ∨ t.val % 4 = 2 then
    outCore c (grid0.coords t) (ms0 t) (hs0 t) (ms1 t) (hs1 t) (ms2 t) (hs2 t) (ms3 t) (hs3 t) (ms4 t) (hs4 t) ((core_iff t).mpr h) (fun h2 => (rim_iff t).mp h2 ((core_iff t).mpr h)) (iblk m c 0 t) (iblk m c 1 t) (iblk m c 2 t) (iblk m c 3 t)
  else
    outRim c (grid0.coords t) (ms0 t) (hs0 t) (ms1 t) (hs1 t) (ms2 t) (hs2 t) (ms3 t) (hs3 t) (ms4 t) (hs4 t) (fun h1 => h ((core_iff t).mp h1)) ((rim_iff t).mpr fun h1 => h ((core_iff t).mp h1)) (iblk m c 0 t) (iblk m c 1 t) (iblk m c 2 t) (iblk m c 3 t)

theorem outAt_core (c : Dev nD) (t : Fin cfg0.N) (h : t.val % 4 = 1 ∨ t.val % 4 = 2) :
    outAt m c t = outCore c (grid0.coords t) (ms0 t) (hs0 t) (ms1 t) (hs1 t) (ms2 t) (hs2 t) (ms3 t) (hs3 t) (ms4 t) (hs4 t) ((core_iff t).mpr h) (fun h2 => (rim_iff t).mp h2 ((core_iff t).mpr h)) (iblk m c 0 t) (iblk m c 1 t) (iblk m c 2 t) (iblk m c 3 t) :=
  dif_pos h

theorem outAt_rim (c : Dev nD) (t : Fin cfg0.N) (h : ¬ (t.val % 4 = 1 ∨ t.val % 4 = 2)) :
    outAt m c t = outRim c (grid0.coords t) (ms0 t) (hs0 t) (ms1 t) (hs1 t) (ms2 t) (hs2 t) (ms3 t) (hs3 t) (ms4 t) (hs4 t) (fun h1 => h ((core_iff t).mp h1)) ((rim_iff t).mpr fun h1 => h ((core_iff t).mp h1)) (iblk m c 0 t) (iblk m c 1 t) (iblk m c 2 t) (iblk m c 3 t) :=
  dif_neg h

/-- The proof data of the one pipeline on core `c`: the arrays as launched; after the body each input's buffer
    at its block and the output's at `outAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the depth tile says which case the point is
    in; that case's run applies; its pieces cover the block, so the buffer ends at them read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h : t.val % 4 = 1 ∨ t.val % 4 = 2
  · rw [outAt_core m c t h]
    unfold outCore
    iintro ⟨HΦ, Ho, ⟨%d0, H0⟩, ⟨%d1, H1⟩, ⟨%d2, H2⟩, ⟨%d3, H3⟩, ⟨%d4, H4⟩⟩
    iapply ((runCore c (grid0.coords t) _ _ _ _ _ _ _ _ _ _ ((core_iff t).mpr h) (fun h2 => (rim_iff t).mp h2 ((core_iff t).mpr h)) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCore c _ _ _ _ _ _ _ _ _ _ _ _ _ _ _ _ _)
  · rw [outAt_rim m c t h]
    unfold outRim
    iintro ⟨HΦ, Ho, ⟨%d0, H0⟩, ⟨%d1, H1⟩, ⟨%d2, H2⟩, ⟨%d3, H3⟩, ⟨%d4, H4⟩⟩
    iapply ((runRim c (grid0.coords t) _ _ _ _ _ _ _ _ _ _ (fun h1 => h ((core_iff t).mp h1)) ((rim_iff t).mpr fun h1 => h ((core_iff t).mp h1)) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverRim c _ _ _ _ _ _ _ _ _ _ _ _ _ _ _ _ _)

/-- The body obligation at every point: the output window is stored into at every point, so its buffer
    is returned at what the body left. -/
theorem body_obligation (c : Dev nD) : BodyObligation (dats (F := F) m 0 c) (defs₀ (F := F)) Variants.none () Set.univ := fun t => by
  rw [bigSep_W0, bigSep_W0]
  have hl : idle0 4 (grid0.coords t) = false := out_live t
  simp only [hl]
  exact sound_body m c t

set_option backward.isDefEq.respectTransparency.types false in
/-- Every weakly fair execution of the program terminates, and in every final state every windowed array
    is at what the proof data computes and every other buffer as launched. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.IdealPieces.lean ====
/-
  The two piece lists the body's stores leave, written out. In the core case: the projection of the point's
  four input blocks on the middle 32 by 32 square of every plane, zeros on the four bands around it. In the
  other case: one zero block. Loading a whole staging buffer reads the buffer's contents, so the projection's
  piece is a function of the four input blocks alone.
-/
import proofs.«182236_j807453852264_2_alg».proof.Proof.IdealBody
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros1 : (![0] : Fin 1 → Nat) = fun _ => 0 := funext fun a => by fin_cases a; rfl

/-- The five stores of the core case, last first. -/
def corePieces (x0 : Vec F S32x64 .f32) (x1 : Vec F S64 .f32) (x2 : Vec F S64x16384 .f32) (x3 : Vec F S16384 .f32) : List (View.Piece (Elt F) S32x1x16x64x64 .f32) :=
  [⟨Rect.unit (s := S32x1x16x64x64) ![0, 0, 0, 16, 16] S32x1x16x32x32.size inb_S32x1x16x64x64_S32x1x16x32x32_0_0_0_16_16, k0_pay2 (k0_pay4 x0 x1 x2 x3)⟩,
   ⟨Rect.unit (s := S32x1x16x64x64) ![0, 0, 0, 16, 48] S32x1x16x32x16.size inb_S32x1x16x64x64_S32x1x16x32x16_0_0_0_16_48, k0_pay1 (k0_pay8 (F := F))⟩,
   ⟨Rect.unit (s := S32x1x16x64x64) ![0, 0, 0, 16, 0] S32x1x16x32x16.size inb_S32x1x16x64x64_S32x1x16x32x16_0_0_0_16_0, k0_pay7 (F := F)⟩,
   ⟨Rect.unit (s := S32x1x16x64x64) ![0, 0, 0, 48, 0] S32x1x16x16x64.size inb_S32x1x16x64x64_S32x1x16x16x64_0_0_0_48_0, k0_pay6 (F := F)⟩,
   ⟨Rect.unit (s := S32x1x16x64x64) ![0, 0, 0, 0, 0] S32x1x16x16x64.size inb_S32x1x16x64x64_S32x1x16x16x64_0_0_0_0_0, k0_pay5 (F := F)⟩]

/-- The one store of the other case. -/
def rimPieces : List (View.Piece (Elt F) S32x1x16x64x64 .f32) :=
  [⟨Rect.unit (s := S32x1x16x64x64) ![0, 0, 0, 0, 0] S32x1x16x64x64.size inb_S32x1x16x64x64_S32x1x16x64x64_0_0_0_0_0, k0_pay3 (F := F)⟩]

theorem runCore_pieces (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : k0_cond1 i = 1#1) (hc2 : ¬ k0_cond2 i = 1#1)
    (x0 : Vec F S32x64 .f32) (x1 : Vec F S64 .f32) (x2 : Vec F S64x16384 .f32) (x3 : Vec F S16384 .f32) :
    (runCore (F := F) c i arg2 harg2 arg3 harg3 arg4 harg4 arg5 harg5 arg6 harg6 hc1 hc2 x0 x1 x2 x3).1 = corePieces x0 x1 x2 x3 := by
  unfold runCore corePieces
  dsimp only
  sl_unfold_words
  simp only [View.readAt_eq_ld, harg2.read_unread, harg3.read_unread, harg4.read_unread, harg5.read_unread,
    View.ld_unit_zero (S := S32x64) zeros2, View.ld_unit_zero (S := S64) zeros1,
    View.ld_unit_zero (S := S64x16384) zeros2, View.ld_unit_zero (S := S16384) zeros1]

theorem runRim_pieces (c : Dev nD) (i : grid0.Coords) (arg2 : Memref sig .tc .vmem S32x64 .f32) (harg2 : arg2.IsWhole) (arg3 : Memref sig .tc .vmem S64 .f32) (harg3 : arg3.IsWhole) (arg4 : Memref sig .tc .vmem S64x16384 .f32) (harg4 : arg4.IsWhole) (arg5 : Memref sig .tc .vmem S16384 .f32) (harg5 : arg5.IsWhole) (arg6 : Memref sig .tc .vmem S32x1x16x64x64 .f32) (harg6 : arg6.IsWhole) (hc1 : ¬ k0_cond1 i = 1#1) (hc2 : k0_cond2 i = 1#1)
    (x0 : Vec F S32x64 .f32) (x1 : Vec F S64 .f32) (x2 : Vec F S64x16384 .f32) (x3 : Vec F S16384 .f32) :
    (runRim (F := F) c i arg2 harg2 arg3 harg3 arg4 harg4 arg5 harg5 arg6 harg6 hc1 hc2 x0 x1 x2 x3).1 = rimPieces := by
  unfold runRim rimPieces
  dsimp only

end Cert.KernelIdeal.Body

end
-- ==== Proof.Spec.lean ====
/-
  The specification: what the result array holds, index by index, as one function of the four arguments.

  The projection of batch row `b` at column `q` is  proj b q = Σ_k (z b k · L k) · U k q + mu q  over the 64
  basis vectors. Its 262144 columns are the cells of 8 channels of a 32×32×32 cube, channel-major then depth,
  row, column: cell (ch, d, h, w) is column ch·32768 + d·1024 + h·32 + w. The result is a 32×8×64×64×64 array
  that is zero except on the middle cube 16..47 of the last three axes of every channel, where entry
  (b, ch, 16+d, 16+h, 16+w) is proj b (cell ch d h w).
-/
import Idealize.ShloMosaic.Lib.ValueIdx
import Idealize.ShloMosaic.PureOps.Ideal

noncomputable section

namespace Cert.Placement

open Idealize.ShloMosaic Idealize.ShloMosaic.ValueIdx
open scoped BigOperators

/-- The projection of row `b` at column `q`. -/
def proj (z : (⟨2, ![32, 64]⟩ : Shape).Idx → EReal) (U : (⟨2, ![64, 262144]⟩ : Shape).Idx → EReal)
    (L : (⟨1, ![64]⟩ : Shape).Idx → EReal) (mu : (⟨1, ![262144]⟩ : Shape).Idx → EReal) (b : Fin 32) (q : Fin 262144) : EReal :=
  (∑ k : Fin 64, (z (ix2 b k) * L (ix1 k)) * U (ix2 k q)) + mu (ix1 q)

/-- A coordinate of the 64-grid lies in the middle cube. -/
def inCore (n : ℕ) : Prop := 16 ≤ n ∧ n < 48

instance (n : ℕ) : Decidable (inCore n) := by unfold inCore; infer_instance

/-- The column of the projection that holds cell (d, h, w) of channel `ch`. -/
def cell (ch : Fin 8) (d h w : Fin 32) : Fin 262144 :=
  ⟨ch.val * 32768 + d.val * 1024 + h.val * 32 + w.val, by have := ch.isLt; have := d.isLt; have := h.isLt; have := w.isLt; omega⟩

/-- A coordinate of the middle cube, counted from the cube's corner. -/
def fromCorner (n : ℕ) (h : inCore n) : Fin 32 := ⟨n - 16, by unfold inCore at h; omega⟩

/-- The result array: the projection placed in the middle cube of a zero grid. -/
def placed (z : (⟨2, ![32, 64]⟩ : Shape).Idx → EReal) (U : (⟨2, ![64, 262144]⟩ : Shape).Idx → EReal)
    (L : (⟨1, ![64]⟩ : Shape).Idx → EReal) (mu : (⟨1, ![262144]⟩ : Shape).Idx → EReal) :
    (⟨5, ![32, 8, 64, 64, 64]⟩ : Shape).Idx → EReal := fun i =>
  if h : inCore (i 2).val ∧ inCore (i 3).val ∧ inCore (i 4).val then
    proj z U L mu ⟨(i 0).val, (i 0).isLt⟩ (cell ⟨(i 1).val, (i 1).isLt⟩ (fromCorner _ h.1) (fromCorner _ h.2.1) (fromCorner _ h.2.2))
  else 0

end Cert.Placement

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.IdealBlock.lean ====
/-
  What a block of the result holds, at the exact values, as a function of the point's four input blocks.

  At a point that meets the core cube: entry (b, 0, d, r, s) of the 32×1×16×64×64 block is zero unless both
  r and s lie in 16..47, and there it is  Σ_k (z b k · L k) · Ublock k j + mublock j  at the block column
  j = d·1024 + (r − 16)·32 + (s − 16): the scaled rows times the block of U, plus the block of mu, reshaped
  from 16384 columns to 16 planes of 32 by 32. Each of the five stored rectangles agrees with this function:
  the four bands hold the zero word, the middle square holds the reshaped projection. At the other points
  every entry is zero. A change of float format is the identity on exact values, and the matrix unit's product
  into a zero accumulator is the plain sum over the 64 contraction indices.
-/
import proofs.«182236_j807453852264_2_alg».proof.Proof.IdealPieces
import proofs.«182236_j807453852264_2_alg».proof.Proof.Spec
import proofs.«182236_j807453852264_2_alg».proof.Proof.LibMatmul2d
import Idealize.ShloMosaic.Lib.ValueLayout
import Idealize.ShloMosaic.PureOps.Ideal.Laws

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Placement
open scoped BigOperators

/-- The projection of the four blocks at row `b`, block column `j`. -/
def blockProj (x0 : Vec Ideal S32x64 .f32) (x1 : Vec Ideal S64 .f32) (x2 : Vec Ideal S64x16384 .f32) (x3 : Vec Ideal S16384 .f32) (b : Fin 32) (j : Fin 16384) : EReal :=
  (∑ k : Fin 64, (x0 (ix2 b k) * x1 (ix1 k)) * x2 (ix2 k j)) + x3 (ix1 j)

/-- The block column holding plane `d`, cube cell (h, w). -/
def blockCell (d : Fin 16) (h w : Fin 32) : Fin 16384 :=
  ⟨d.val * 1024 + h.val * 32 + w.val, by have := d.isLt; have := h.isLt; have := w.isLt; omega⟩

/-- The block of a point that meets the core cube. -/
def coreBlock (x0 : Vec Ideal S32x64 .f32) (x1 : Vec Ideal S64 .f32) (x2 : Vec Ideal S64x16384 .f32) (x3 : Vec Ideal S16384 .f32) : S32x1x16x64x64.Idx → EReal := fun y =>
  if h : inCore (y 3).val ∧ inCore (y 4).val then
    blockProj x0 x1 x2 x3 ⟨(y 0).val, (y 0).isLt⟩ (blockCell ⟨(y 2).val, (y 2).isLt⟩ (fromCorner _ h.1) (fromCorner _ h.2))
  else 0

/-! ## The arithmetic of the projection, read at an index -/

/-- The scaled row: `z` times `L` broadcast along the rows, in the narrower format. -/
theorem scaled_apply (x0 : Vec Ideal S32x64 .f32) (x1 : Vec Ideal S64 .f32) (b : Fin 32) (k : Fin 64) :
    (truncf .bf16 (mulf x0 (broadcastTo S32x64 (shapeCast S1x64 x1 shapeCasts_S64_S1x64) broadcasts_S1x64_S32x64)) bitsLt_bf16_f32 : FVec Ideal S32x64 .bf16) (ix2 b k)
      = x0 (ix2 b k) * x1 (ix1 k) := by
  show x0 (ix2 b k) * broadcastTo S32x64 (shapeCast S1x64 x1 shapeCasts_S64_S1x64) broadcasts_S1x64_S32x64 (ix2 b k) = _
  rw [broadcastTo_1b_ab_apply, shapeCast_a_1a_apply]

/-- The product into a zero accumulator plus the broadcast row of `mu`, at (b, j). -/
theorem sum_apply (A : FVec Ideal S32x64 .bf16) (B : FVec Ideal S64x16384 .bf16) (x3 : Vec Ideal S16384 .f32) (b : Fin 32) (j : Fin 16384) :
    addf (matmul dot_S32x64_S64x16384_S32x16384_1_0_0_1_n_n none A B (constant (F := Ideal) S32x16384 .f32 0x00000000#32))
        (broadcastTo S32x16384 (shapeCast S1x16384 x3 shapeCasts_S16384_S1x16384) broadcasts_S1x16384_S32x16384) (ix2 b j)
      = (∑ k : Fin 64, A (ix2 b k) * B (ix2 k j)) + x3 (ix1 j) := by
  show matmul dot_S32x64_S64x16384_S32x16384_1_0_0_1_n_n none A B (constant (F := Ideal) S32x16384 .f32 0x00000000#32) (ix2 b j)
      + broadcastTo S32x16384 (shapeCast S1x16384 x3 shapeCasts_S16384_S1x16384) broadcasts_S1x16384_S32x16384 (ix2 b j) = _
  rw [broadcastTo_1b_ab_apply, shapeCast_a_1a_apply]
  exact congrArg (· + x3 (ix1 j)) (Cert.LibMatmul2d.matmul_plain_apply (M := 32) (K := 64) (N := 16384) A B b j)

/-- The projection payload, reshaped to planes, at (b, d, h, w). -/
theorem pay4_apply (x0 : Vec Ideal S32x64 .f32) (x1 : Vec Ideal S64 .f32) (x2 : Vec Ideal S64x16384 .f32) (x3 : Vec Ideal S16384 .f32) (b : Fin 32) (d : Fin 16) (h w : Fin 32) :
    k0_pay4 (F := Ideal) x0 x1 x2 x3 (ix4 b d h w) = blockProj x0 x1 x2 x3 b (blockCell d h w) := by
  unfold k0_pay4
  refine (shapeCast_apply _ shapeCasts_S32x16384_S32x16x32x32 (ix4 b d h w) (ix2 b (blockCell d h w)) ?_).trans ?_
  · rw [Shape.rowMajor_val_two, Shape.rowMajor_val_four]
    show b.val * 16384 + (d.val * 1024 + h.val * 32 + w.val) = ((b.val * 16 + d.val) * 32 + h.val) * 32 + w.val
    omega
  · refine (sum_apply _ _ x3 b (blockCell d h w)).trans ?_
    unfold blockProj
    refine congrArg (· + x3 (ix1 (blockCell d h w))) (Finset.sum_congr rfl fun k _ => ?_)
    exact congrArg (· * x2 (ix2 k (blockCell d h w))) (scaled_apply x0 x1 b k)

/-! ## The five pieces agree with the block function -/

theorem zero_word : (Scalar.ofBits (F := Ideal) .f32 0x00000000#32 : Ideal .f32) = (0 : EReal) := Ideal.ofBits_zero_f32

/-- The middle square holds the reshaped projection. -/
theorem data_piece (x0 : Vec Ideal S32x64 .f32) (x1 : Vec Ideal S64 .f32) (x2 : Vec Ideal S64x16384 .f32) (x3 : Vec Ideal S16384 .f32) (x : S32x1x16x32x32.Idx) :
    k0_pay2 (F := Ideal) (k0_pay4 x0 x1 x2 x3) x
      = coreBlock x0 x1 x2 x3 ((Rect.unit (s := S32x1x16x64x64) ![0, 0, 0, 16, 16] S32x1x16x32x32.size inb_S32x1x16x64x64_S32x1x16x32x32_0_0_0_16_16).emb x) := by
  have l0 : (x 0).val < 32 := (x 0).isLt
  have l1 : (x 1).val < 1 := (x 1).isLt
  have l2 : (x 2).val < 16 := (x 2).isLt
  have l3 : (x 3).val < 32 := (x 3).isLt
  have l4 : (x 4).val < 32 := (x 4).isLt
  have h3 : inCore (((Rect.unit (s := S32x1x16x64x64) ![0, 0, 0, 16, 16] S32x1x16x32x32.size inb_S32x1x16x64x64_S32x1x16x32x32_0_0_0_16_16).emb x) 3).val := by
    show inCore (16 + 1 * (x 3).val); unfold inCore; omega
  have h4 : inCore (((Rect.unit (s := S32x1x16x64x64) ![0, 0, 0, 16, 16] S32x1x16x32x32.size inb_S32x1x16x64x64_S32x1x16x32x32_0_0_0_16_16).emb x) 4).val := by
    show inCore (16 + 1 * (x 4).val); unfold inCore; omega
  unfold coreBlock
  rw [dif_pos ⟨h3, h4⟩]
  unfold k0_pay2
  dsimp only
  refine (shapeCast_apply _ shapeCasts_S32x16x32x32_S32x1x16x32x32 x (ix4 ⟨(x 0).val, l0⟩ ⟨(x 2).val, l2⟩ ⟨(x 3).val, l3⟩ ⟨(x 4).val, l4⟩) ?_).trans ?_
  · rw [Shape.rowMajor_val_four, Shape.rowMajor_val_five]
    show (((x 0).val * 16 + (x 2).val) * 32 + (x 3).val) * 32 + (x 4).val = ((((x 0).val * 1 + (x 1).val) * 16 + (x 2).val) * 32 + (x 3).val) * 32 + (x 4).val
    omega
  · refine (pay4_apply x0 x1 x2 x3 _ _ _ _).trans ?_
    have eb : (⟨(x 0).val, l0⟩ : Fin 32) = ⟨(((Rect.unit (s := S32x1x16x64x64) ![0, 0, 0, 16, 16] S32x1x16x32x32.size inb_S32x1x16x64x64_S32x1x16x32x32_0_0_0_16_16).emb x) 0).val, (((Rect.unit (s := S32x1x16x64x64) ![0, 0, 0, 16, 16] S32x1x16x32x32.size inb_S32x1x16x64x64_S32x1x16x32x32_0_0_0_16_16).emb x) 0).isLt⟩ :=
      Fin.ext (by show (x 0).val = 0 + 1 * (x 0).val; omega)
    have ej : blockCell ⟨(x 2).val, l2⟩ ⟨(x 3).val, l3⟩ ⟨(x 4).val, l4⟩
        = blockCell ⟨(((Rect.unit (s := S32x1x16x64x64) ![0, 0, 0, 16, 16] S32x1x16x32x32.size inb_S32x1x16x64x64_S32x1x16x32x32_0_0_0_16_16).emb x) 2).val, (((Rect.unit (s := S32x1x16x64x64) ![0, 0, 0, 16, 16] S32x1x16x32x32.size inb_S32x1x16x64x64_S32x1x16x32x32_0_0_0_16_16).emb x) 2).isLt⟩ (fromCorner _ h3) (fromCorner _ h4) :=
      Fin.ext (by
        show (x 2).val * 1024 + (x 3).val * 32 + (x 4).val = (0 + 1 * (x 2).val) * 1024 + (16 + 1 * (x 3).val - 16) * 32 + (16 + 1 * (x 4).val - 16)
        omega)
    rw [eb, ej]

/-- A band of zeros agrees with the block function wherever its rows or columns lie outside 16..47. -/
theorem zero_of_outside (x0 : Vec Ideal S32x64 .f32) (x1 : Vec Ideal S64 .f32) (x2 : Vec Ideal S64x16384 .f32) (x3 : Vec Ideal S16384 .f32) (y : S32x1x16x64x64.Idx) (h : ¬ (inCore (y 3).val ∧ inCore (y 4).val)) :
    coreBlock x0 x1 x2 x3 y = 0 := by
  unfold coreBlock; rw [dif_neg h]

theorem band_right (x0 : Vec Ideal S32x64 .f32) (x1 : Vec Ideal S64 .f32) (x2 : Vec Ideal S64x16384 .f32) (x3 : Vec Ideal S16384 .f32) (x : S32x1x16x32x16.Idx) :
    k0_pay1 (F := Ideal) (k0_pay8 (F := Ideal)) x
      = coreBlock x0 x1 x2 x3 ((Rect.unit (s := S32x1x16x64x64) ![0, 0, 0, 16, 48] S32x1x16x32x16.size inb_S32x1x16x64x64_S32x1x16x32x16_0_0_0_16_48).emb x) := by
  rw [zero_of_outside x0 x1 x2 x3 _ (fun h => by
    have : inCore (48 + 1 * (x 4).val) := h.2
    unfold inCore at this; omega)]
  exact zero_word

theorem band_left (x0 : Vec Ideal S32x64 .f32) (x1 : Vec Ideal S64 .f32) (x2 : Vec Ideal S64x16384 .f32) (x3 : Vec Ideal S16384 .f32) (x : S32x1x16x32x16.Idx) :
    k0_pay7 (F := Ideal) x
      = coreBlock x0 x1 x2 x3 ((Rect.unit (s := S32x1x16x64x64) ![0, 0, 0, 16, 0] S32x1x16x32x16.size inb_S32x1x16x64x64_S32x1x16x32x16_0_0_0_16_0).emb x) := by
  rw [zero_of_outside x0 x1 x2 x3 _ (fun h => by
    have : inCore (0 + 1 * (x 4).val) := h.2
    have l4 : (x 4).val < 16 := (x 4).isLt
    unfold inCore at this; omega)]
  exact zero_word

theorem band_bottom (x0 : Vec Ideal S32x64 .f32) (x1 : Vec Ideal S64 .f32) (x2 : Vec Ideal S64x16384 .f32) (x3 : Vec Ideal S16384 .f32) (x : S32x1x16x16x64.Idx) :
    k0_pay6 (F := Ideal) x
      = coreBlock x0 x1 x2 x3 ((Rect.unit (s := S32x1x16x64x64) ![0, 0, 0, 48, 0] S32x1x16x16x64.size inb_S32x1x16x64x64_S32x1x16x16x64_0_0_0_48_0).emb x) := by
  rw [zero_of_outside x0 x1 x2 x3 _ (fun h => by
    have : inCore (48 + 1 * (x 3).val) := h.1
    unfold inCore at this; omega)]
  exact zero_word

theorem band_top (x0 : Vec Ideal S32x64 .f32) (x1 : Vec Ideal S64 .f32) (x2 : Vec Ideal S64x16384 .f32) (x3 : Vec Ideal S16384 .f32) (x : S32x1x16x16x64.Idx) :
    k0_pay5 (F := Ideal) x
      = coreBlock x0 x1 x2 x3 ((Rect.unit (s := S32x1x16x64x64) ![0, 0, 0, 0, 0] S32x1x16x16x64.size inb_S32x1x16x64x64_S32x1x16x16x64_0_0_0_0_0).emb x) := by
  rw [zero_of_outside x0 x1 x2 x3 _ (fun h => by
    have : inCore (0 + 1 * (x 3).val) := h.1
    have l3 : (x 3).val < 16 := (x 3).isLt
    unfold inCore at this; omega)]
  exact zero_word

/-- The five rectangles cover the block. -/
theorem corePieces_cover (x0 : Vec Ideal S32x64 .f32) (x1 : Vec Ideal S64 .f32) (x2 : Vec Ideal S64x16384 .f32) (x3 : Vec Ideal S16384 .f32) (y : S32x1x16x64x64.Idx) :
    ∃ p ∈ corePieces x0 x1 x2 x3, y ∈ p.1.set :=
  View.cover_of_tiledBy (corePieces x0 x1 x2 x3) ![32, 1, 16, 16, 16] (by sl_kernel_rfl) y

/-- The block of a core point, read back: the block function of its four input blocks. -/
theorem core_read (x0 : Vec Ideal S32x64 .f32) (x1 : Vec Ideal S64 .f32) (x2 : Vec Ideal S64x16384 .f32) (x3 : Vec Ideal S16384 .f32) (y : S32x1x16x64x64.Idx) :
    outView.read (Elt Ideal) (outView.writes (Elt Ideal) outView.junk (corePieces x0 x1 x2 x3)) y = coreBlock x0 x1 x2 x3 y := by
  refine View.read_writes_apply_of_pieces outView outView.junk (coreBlock x0 x1 x2 x3) (corePieces x0 x1 x2 x3) ?_ y (corePieces_cover x0 x1 x2 x3 y)
  unfold corePieces
  exact List.forall_mem_cons.mpr ⟨fun x => data_piece x0 x1 x2 x3 x,
    List.forall_mem_cons.mpr ⟨fun x => band_right x0 x1 x2 x3 x,
    List.forall_mem_cons.mpr ⟨fun x => band_left x0 x1 x2 x3 x,
    List.forall_mem_cons.mpr ⟨fun x => band_bottom x0 x1 x2 x3 x,
    List.forall_mem_cons.mpr ⟨fun x => band_top x0 x1 x2 x3 x, fun _ h => absurd h List.not_mem_nil⟩⟩⟩⟩⟩

/-- The block of any other point, read back: zero everywhere. -/
theorem rim_read (y : S32x1x16x64x64.Idx) :
    outView.read (Elt Ideal) (outView.writes (Elt Ideal) outView.junk (rimPieces (F := Ideal))) y = (0 : EReal) := by
  refine View.read_writes_apply_of_pieces outView outView.junk (fun _ => (0 : EReal)) (rimPieces (F := Ideal)) ?_ y ?_
  · unfold rimPieces
    exact List.forall_mem_cons.mpr ⟨fun x => zero_word, fun _ h => absurd h List.not_mem_nil⟩
  · unfold rimPieces
    exact ⟨_, List.mem_cons_self, View.mem_set_unit_zero (S := S32x1x16x64x64) (funext fun a => by fin_cases a <;> rfl)
      inb_S32x1x16x64x64_S32x1x16x64x64_0_0_0_0_0 y⟩

end Cert.KernelIdeal.Body

end
-- ==== Proof.IdealValue.lean ====
/-
  From blocks to the array. Point `t` (channel t / 4, depth tile t % 4) writes back the block at channel
  t / 4, planes 16·(t % 4) .. 16·(t % 4) + 15 of the result. The inputs `z` and `L` are staged whole; at a
  point of depth tile 1 or 2 the staged block of `U` (and of `mu`) is the run of 16384 columns number
  2·(t / 4) + (t % 4 − 1), which are the columns of that channel's cube planes 16·(t % 4) − 16 onwards. So the
  block a core point writes is the block of the placed projection, and the zero block of any other point is
  too, since its planes lie outside 16..47. The 32 blocks tile the result, hence the result array is the
  placed projection.
-/
import proofs.«182236_j807453852264_2_alg».proof.Proof.IdealBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Placement
open scoped BigOperators

/-! ## A block of the placed projection, over any arrays that agree with the blocks -/

/-- The block of a core point is the block of the placed projection at channel `ch`, depth tile `dt`. -/
theorem coreBlock_eq_placed (x0 : Vec Ideal S32x64 .f32) (x1 : Vec Ideal S64 .f32) (x2 : Vec Ideal S64x16384 .f32) (x3 : Vec Ideal S16384 .f32) (z : (⟨2, ![32, 64]⟩ : Shape).Idx → EReal) (U : (⟨2, ![64, 262144]⟩ : Shape).Idx → EReal) (L : (⟨1, ![64]⟩ : Shape).Idx → EReal) (mu : (⟨1, ![262144]⟩ : Shape).Idx → EReal) (ch : Fin 8) (dt : ℕ) (hdt : dt = 1 ∨ dt = 2)
    (h0 : ∀ b k, x0 (ix2 b k) = z (ix2 b k)) (h1 : ∀ k, x1 (ix1 k) = L (ix1 k))
    (h2 : ∀ (k : Fin 64) (j : Fin 16384) (q : Fin 262144), q.val = (2 * ch.val + (dt - 1)) * 16384 + j.val → x2 (ix2 k j) = U (ix2 k q))
    (h3 : ∀ (j : Fin 16384) (q : Fin 262144), q.val = (2 * ch.val + (dt - 1)) * 16384 + j.val → x3 (ix1 j) = mu (ix1 q))
    (y : S32x1x16x64x64.Idx) (i : (⟨5, ![32, 8, 64, 64, 64]⟩ : Shape).Idx)
    (hi0 : (i 0).val = (y 0).val) (hi1 : (i 1).val = ch.val) (hi2 : (i 2).val = dt * 16 + (y 2).val)
    (hi3 : (i 3).val = (y 3).val) (hi4 : (i 4).val = (y 4).val) :
    coreBlock x0 x1 x2 x3 y = placed z U L mu i := by
  have l2 : (y 2).val < 16 := (y 2).isLt
  have lc : ch.val < 8 := ch.isLt
  unfold coreBlock placed
  by_cases hc : inCore (y 3).val ∧ inCore (y 4).val
  · have hc' : inCore (i 2).val ∧ inCore (i 3).val ∧ inCore (i 4).val := by
      refine ⟨?_, by rw [hi3]; exact hc.1, by rw [hi4]; exact hc.2⟩
      unfold inCore; rcases hdt with rfl | rfl <;> omega
    rw [dif_pos hc, dif_pos hc']
    have c3 := hc.1
    have c4 := hc.2
    unfold inCore at c3 c4
    have hq : (cell ⟨(i 1).val, (i 1).isLt⟩ (fromCorner _ hc'.1) (fromCorner _ hc'.2.1) (fromCorner _ hc'.2.2)).val
        = (2 * ch.val + (dt - 1)) * 16384 + (blockCell ⟨(y 2).val, (y 2).isLt⟩ (fromCorner _ hc.1) (fromCorner _ hc.2)).val := by
      show (i 1).val * 32768 + ((i 2).val - 16) * 1024 + ((i 3).val - 16) * 32 + ((i 4).val - 16)
        = (2 * ch.val + (dt - 1)) * 16384 + ((y 2).val * 1024 + ((y 3).val - 16) * 32 + ((y 4).val - 16))
      rcases hdt with rfl | rfl <;> omega
    have hb : (⟨(y 0).val, (y 0).isLt⟩ : Fin 32) = ⟨(i 0).val, (i 0).isLt⟩ := Fin.ext hi0.symm
    unfold blockProj proj
    rw [h3 _ _ hq, hb]
    refine congrArg (· + mu (ix1 _)) (Finset.sum_congr rfl fun k _ => ?_)
    rw [h0, h1, h2 k _ _ hq]
  · have hc' : ¬ (inCore (i 2).val ∧ inCore (i 3).val ∧ inCore (i 4).val) :=
      fun h => hc ⟨by rw [← hi3]; exact h.2.1, by rw [← hi4]; exact h.2.2⟩
    rw [dif_neg hc, dif_neg hc']

/-- The placed projection vanishes on the planes of depth tiles 0 and 3. -/
theorem placed_rim (z : (⟨2, ![32, 64]⟩ : Shape).Idx → EReal) (U : (⟨2, ![64, 262144]⟩ : Shape).Idx → EReal) (L : (⟨1, ![64]⟩ : Shape).Idx → EReal) (mu : (⟨1, ![262144]⟩ : Shape).Idx → EReal) (dt : ℕ) (hdt : dt = 0 ∨ dt = 3) (y2 : ℕ) (hy : y2 < 16)
    (i : (⟨5, ![32, 8, 64, 64, 64]⟩ : Shape).Idx) (hi2 : (i 2).val = dt * 16 + y2) :
    placed z U L mu i = 0 := by
  unfold placed
  rw [dif_neg fun h => by have h2 := h.1; unfold inCore at h2; rcases hdt with rfl | rfl <;> omega]

/-! ## The index maps over the grid -/

variable (m : (ℓ : Loc nD τ sig) → Buf (Elt Ideal) ℓ) (ρ : Dev nD → PrngReg)

/-- The printed index maps at point `t`: the output block is (0, t / 4, t % 4, 0, 0); `z` and `L` are block 0; at depth
    tiles 1 and 2 the block of `U` and of `mu` is number 2·(t / 4) + (t % 4 − 1). Decided over the 32 points. -/
theorem index_facts : ∀ t : Fin cfg0.N,
    win0_4.index t (0 : Fin 5) = 0 ∧ win0_4.index t (1 : Fin 5) = t.val / 4 ∧ win0_4.index t (2 : Fin 5) = t.val % 4
    ∧ win0_4.index t (3 : Fin 5) = 0 ∧ win0_4.index t (4 : Fin 5) = 0
    ∧ win0_0.index t (0 : Fin 2) = 0 ∧ win0_0.index t (1 : Fin 2) = 0 ∧ win0_1.index t (0 : Fin 1) = 0
    ∧ win0_2.index t (0 : Fin 2) = 0
    ∧ ((t.val % 4 = 1 ∨ t.val % 4 = 2) → win0_2.index t (1 : Fin 2) = 2 * (t.val / 4) + (t.val % 4 - 1)
        ∧ win0_3.index t (0 : Fin 1) = 2 * (t.val / 4) + (t.val % 4 - 1)) :=
  (by decide +kernel : ∀ t : Fin grid0.N, _)

/-! ## What each point writes back -/

/-- WHAT POINT `t` WRITES BACK is block `t` of the placed projection of the argument arrays. -/
theorem flushed_eq (c : Dev nD) (t : Fin cfg0.N) :
    (dats m 0 c).flushed 4 t = ((cfg0.win 4).blk t).view.read (Elt Ideal) (placed (V m c main_arg0) (V m c main_arg1) (V m c main_arg2) (V m c main_arg3)) := by
  show (cfg0.win 4).cut (grid0.coords t) ((dats m 0 c).after 4 t) = _
  rw [after_4]
  obtain ⟨e0, e1, e2, e3, e4, f00, f01, f10, f20, hcore⟩ := index_facts t
  have hN : t.val < 32 := lt_of_lt_of_eq t.isLt (show cfg0.N = 32 from N_0)
  funext y
  have l0 : (y 0).val < 32 := (y 0).isLt
  have l1 : (y 1).val < 1 := (y 1).isLt
  have l2 : (y 2).val < 16 := (y 2).isLt
  have l3 : (y 3).val < 64 := (y 3).isLt
  have l4 : (y 4).val < 64 := (y 4).isLt
  show outAt m c t y = placed (V m c main_arg0) (V m c main_arg1) (V m c main_arg2) (V m c main_arg3) (((cfg0.win 4).blk t).view.emb y)
  have hi0 : ((((cfg0.win 4).blk t).view.emb y) 0).val = (y 0).val := by
    show win0_4.index t (0 : Fin 5) * 32 + 1 * (y 0).val = (y 0).val; omega
  have hi1 : ((((cfg0.win 4).blk t).view.emb y) 1).val = t.val / 4 := by
    show win0_4.index t (1 : Fin 5) * 1 + 1 * (y 1).val = t.val / 4; omega
  have hi2 : ((((cfg0.win 4).blk t).view.emb y) 2).val = t.val % 4 * 16 + (y 2).val := by
    show win0_4.index t (2 : Fin 5) * 16 + 1 * (y 2).val = t.val % 4 * 16 + (y 2).val; omega
  have hi3 : ((((cfg0.win 4).blk t).view.emb y) 3).val = (y 3).val := by
    show win0_4.index t (3 : Fin 5) * 64 + 1 * (y 3).val = (y 3).val; omega
  have hi4 : ((((cfg0.win 4).blk t).view.emb y) 4).val = (y 4).val := by
    show win0_4.index t (4 : Fin 5) * 64 + 1 * (y 4).val = (y 4).val; omega
  by_cases h : t.val % 4 = 1 ∨ t.val % 4 = 2
  · obtain ⟨g2, g3⟩ := hcore h
    rw [outAt_core m c t h]
    unfold outCore
    rw [runCore_pieces]
    refine (core_read (iblk m c 0 t) (iblk m c 1 t) (iblk m c 2 t) (iblk m c 3 t) y).trans ?_
    refine coreBlock_eq_placed (iblk m c 0 t) (iblk m c 1 t) (iblk m c 2 t) (iblk m c 3 t)
      (V m c main_arg0) (V m c main_arg1) (V m c main_arg2) (V m c main_arg3) ⟨t.val / 4, by omega⟩ (t.val % 4) h
      ?_ ?_ ?_ ?_ y (((cfg0.win 4).blk t).view.emb y) hi0 hi1 hi2 hi3 hi4
    · intro b k
      show V m c main_arg0 (((cfg0.win 0).blk t).view.emb (ix2 b k)) = V m c main_arg0 (ix2 b k)
      refine congrArg (V m c main_arg0) (funext fun a => Fin.ext ?_)
      match a with
      | ⟨0, _⟩ => show win0_0.index t (0 : Fin 2) * 32 + 1 * b.val = b.val; omega
      | ⟨1, _⟩ => show win0_0.index t (1 : Fin 2) * 64 + 1 * k.val = k.val; omega
    · intro k
      show V m c main_arg2 (((cfg0.win 1).blk t).view.emb (ix1 k)) = V m c main_arg2 (ix1 k)
      refine congrArg (V m c main_arg2) (funext fun a => Fin.ext ?_)
      match a with
      | ⟨0, _⟩ => show win0_1.index t (0 : Fin 1) * 64 + 1 * k.val = k.val; omega
    · intro k j q hq
      show V m c main_arg1 (((cfg0.win 2).blk t).view.emb (ix2 k j)) = V m c main_arg1 (ix2 k q)
      refine congrArg (V m c main_arg1) (funext fun a => Fin.ext ?_)
      match a with
      | ⟨0, _⟩ => show win0_2.index t (0 : Fin 2) * 64 + 1 * k.val = k.val; omega
      | ⟨1, _⟩ =>
        show win0_2.index t (1 : Fin 2) * 16384 + 1 * j.val = q.val
        rw [hq, g2]
        show (2 * (t.val / 4) + (t.val % 4 - 1)) * 16384 + 1 * j.val = (2 * (t.val / 4) + (t.val % 4 - 1)) * 16384 + j.val
        omega
    · intro j q hq
      show V m c main_arg3 (((cfg0.win 3).blk t).view.emb (ix1 j)) = V m c main_arg3 (ix1 q)
      refine congrArg (V m c main_arg3) (funext fun a => Fin.ext ?_)
      match a with
      | ⟨0, _⟩ =>
        show win0_3.index t (0 : Fin 1) * 16384 + 1 * j.val = q.val
        rw [hq, g3]
        show (2 * (t.val / 4) + (t.val % 4 - 1)) * 16384 + 1 * j.val = (2 * (t.val / 4) + (t.val % 4 - 1)) * 16384 + j.val
        omega
  · rw [outAt_rim m c t h]
    unfold outRim
    rw [runRim_pieces]
    refine (rim_read y).trans ?_
    exact (placed_rim (V m c main_arg0) (V m c main_arg1) (V m c main_arg2) (V m c main_arg3) (t.val % 4) (by omega) (y 2).val l2
      (((cfg0.win 4).blk t).view.emb y) hi2).symm

/-! ## The blocks tile the result -/

/-- An index of the result is in point `t`'s block iff each coordinate is in the block's range on its axis. -/
theorem mem_blk (t : Fin cfg0.N) (i : S32x8x64x64x64.Idx) :
    i ∈ ((cfg0.win 4).blk t).view.set ↔ ∀ a : Fin 5, win0_4.index t a * S32x1x16x64x64.size a ≤ (i a).val ∧ (i a).val < win0_4.index t a * S32x1x16x64x64.size a + S32x1x16x64x64.size a := by
  show i ∈ ((View.whole main_v0).slice (win0_4.rect t)).set ↔ _
  rw [View.set_slice_whole, Rect.mem_set_unit]
  exact Iff.rfl

/-- Every index of the result lies in the block of the point of its channel and depth tile. -/
theorem covered (i : S32x8x64x64x64.Idx) :
    ∃ t : Fin cfg0.N, (cfg0.win 4).flush t = true ∧ i ∈ ((cfg0.win 4).blk t).view.set := by
  have l0 : (i 0).val < 32 := (i 0).isLt
  have l1 : (i 1).val < 8 := (i 1).isLt
  have l2 : (i 2).val < 64 := (i 2).isLt
  have l3 : (i 3).val < 64 := (i 3).isLt
  have l4 : (i 4).val < 64 := (i 4).isLt
  have hlt : (i 1).val * 4 + (i 2).val / 16 < cfg0.N := by rw [show cfg0.N = 32 from N_0]; omega
  refine ⟨⟨(i 1).val * 4 + (i 2).val / 16, hlt⟩, flush0_4 _, ?_⟩
  obtain ⟨e0, e1, e2, e3, e4, -⟩ := index_facts ⟨(i 1).val * 4 + (i 2).val / 16, hlt⟩
  have e1' : win0_4.index ⟨(i 1).val * 4 + (i 2).val / 16, hlt⟩ (1 : Fin 5) = ((i 1).val * 4 + (i 2).val / 16) / 4 := e1
  have e2' : win0_4.index ⟨(i 1).val * 4 + (i 2).val / 16, hlt⟩ (2 : Fin 5) = ((i 1).val * 4 + (i 2).val / 16) % 4 := e2
  rw [mem_blk]
  intro a
  match a with
  | ⟨0, _⟩ => show win0_4.index _ (0 : Fin 5) * 32 ≤ (i 0).val ∧ (i 0).val < win0_4.index _ (0 : Fin 5) * 32 + 32; omega
  | ⟨1, _⟩ => show win0_4.index _ (1 : Fin 5) * 1 ≤ (i 1).val ∧ (i 1).val < win0_4.index _ (1 : Fin 5) * 1 + 1; omega
  | ⟨2, _⟩ => show win0_4.index _ (2 : Fin 5) * 16 ≤ (i 2).val ∧ (i 2).val < win0_4.index _ (2 : Fin 5) * 16 + 16; omega
  | ⟨3, _⟩ => show win0_4.index _ (3 : Fin 5) * 64 ≤ (i 3).val ∧ (i 3).val < win0_4.index _ (3 : Fin 5) * 64 + 64; omega
  | ⟨4, _⟩ => show win0_4.index _ (4 : Fin 5) * 64 ≤ (i 4).val ∧ (i 4).val < win0_4.index _ (4 : Fin 5) * 64 + 64; omega

/-- THE RESULT ARRAY after the run is the placed projection of the argument arrays. -/
theorem final (c : Dev nD) : (dats m 0 c).arrAt 4 cfg0.N = (placed (V m c main_arg0) (V m c main_arg1) (V m c main_arg2) (V m c main_arg3)) :=
  (dats m 0 c).arrAt_eq_of_cover 4 (placed (V m c main_arg0) (V m c main_arg1) (V m c main_arg2) (V m c main_arg3)) (fun t _ => flushed_eq m c t) covered

/-! ## The run, read -/

/-- Every weakly fair execution of the idealized kernel terminates with the result array at the placed projection
    of its arguments and the arguments unchanged. -/
theorem run : θ_run defs (onTc (τ := τ) (main (F := Ideal))) ⟨m, fun _ => 0, ρ⟩ fun r => ∀ c : Dev nD,
      r.2.mem ((c : Thread nD τ).loc main_v0) = (placed (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c)))⟩)
    (run_main m ρ)

end Cert.KernelIdeal.Body

end
-- ==== Proof.LibScatterSet.lean ====
/-
  A host scatter whose body returns the update (`x.at[…].set(u)`), read at an index.

  `Host.scatter` is the left fold, over the update indices in row-major order, of "replace the element the update
  lands on". When every update lands inside the operand and no two updates land on the same element, the fold's
  result is the set semantics: an element some update lands on holds that update, every other element holds what
  the operand held. Both facts are proved here for any shapes, any scatter dimension record and any element type,
  from the landing map alone.
-/
import Idealize.ShloMosaic.PureOps.ShapeOps

namespace Idealize.ShloMosaic.LibScatterSet

open Idealize.ShloMosaic

variable {α : Type} {s si u : Shape} {w : Nat}

/-- One step of the fold when the update at `j` lands on `ri j`. -/
private def step (ri : u.Idx → s.Idx) (upd : u.Idx → α) (r : s.Idx → α) (n : Fin u.numel) : s.Idx → α :=
  fun i' => if i' = ri (u.rowMajor.symm n) then upd (u.rowMajor.symm n) else r i'

/-- An index none of the listed updates lands on keeps its value through the fold. -/
private theorem foldl_step_of_not_hit (ri : u.Idx → s.Idx) (upd : u.Idx → α) (i : s.Idx) :
    ∀ (l : List (Fin u.numel)) (r : s.Idx → α), (∀ n ∈ l, ri (u.rowMajor.symm n) ≠ i) → (l.foldl (step ri upd) r) i = r i
  | [], _, _ => rfl
  | a :: l, r, h => by
    rw [List.foldl_cons, foldl_step_of_not_hit ri upd i l _ fun n hn => h n (List.mem_cons_of_mem _ hn)]
    exact if_neg fun e => h a (List.mem_cons_self ..) e.symm

/-- With distinct landing places, the index update `j` lands on ends holding update `j`, once `j` is in the list. -/
private theorem foldl_step_of_hit (ri : u.Idx → s.Idx) (hinj : Function.Injective ri) (upd : u.Idx → α) (j : u.Idx) :
    ∀ (l : List (Fin u.numel)) (r : s.Idx → α), l.Nodup → u.rowMajor j ∈ l → (l.foldl (step ri upd) r) (ri j) = upd j
  | [], _, _, h => absurd h (List.not_mem_nil)
  | a :: l, r, hnd, hmem => by
    rw [List.foldl_cons]
    by_cases ha : u.rowMajor j = a
    · subst ha
      have hnot : ∀ n ∈ l, ri (u.rowMajor.symm n) ≠ ri j := fun n hn e => by
        have h1 : u.rowMajor.symm n = j := hinj e
        have h2 : n = u.rowMajor j := by rw [← h1, Equiv.apply_symm_apply]
        exact (List.nodup_cons.mp hnd).1 (h2 ▸ hn)
      rw [foldl_step_of_not_hit ri upd (ri j) l _ hnot]
      show (if ri j = ri (u.rowMajor.symm (u.rowMajor j)) then upd (u.rowMajor.symm (u.rowMajor j)) else r (ri j)) = upd j
      rw [Equiv.symm_apply_apply, if_pos rfl]
    · exact foldl_step_of_hit ri hinj upd j l _ (List.nodup_cons.mp hnd).2 ((List.mem_cons.mp hmem).resolve_left ha)

/-- The scatter's fold is the fold of `step` when every update index `j` lands on `ri j`. -/
private theorem scatter_eq_foldl (d : ScatterDims s si u) (x : s.Idx → α) (idx : IVec si w) (upd : u.Idx → α)
    (ri : u.Idx → s.Idx) (hri : ∀ j, d.resultIdx? j idx = some (ri j)) :
    Host.scatter d (fun _ b => b) x idx upd = (List.finRange u.numel).foldl (step ri upd) x := by
  unfold Host.scatter
  congr 1
  funext r n
  rw [hri]
  rfl

/-- SET semantics, the element an update lands on: it holds that update. -/
theorem scatter_set_hit (d : ScatterDims s si u) (x : s.Idx → α) (idx : IVec si w) (upd : u.Idx → α)
    (ri : u.Idx → s.Idx) (hri : ∀ j, d.resultIdx? j idx = some (ri j)) (hinj : Function.Injective ri) (j : u.Idx) :
    Host.scatter d (fun _ b => b) x idx upd (ri j) = upd j := by
  rw [scatter_eq_foldl d x idx upd ri hri]
  exact foldl_step_of_hit ri hinj upd j _ _ (List.nodup_finRange _) (List.mem_finRange _)

/-- SET semantics, an element no update lands on: it holds what the operand held. -/
theorem scatter_set_miss (d : ScatterDims s si u) (x : s.Idx → α) (idx : IVec si w) (upd : u.Idx → α)
    (ri : u.Idx → s.Idx) (hri : ∀ j, d.resultIdx? j idx = some (ri j)) (i : s.Idx) (hi : ∀ j, ri j ≠ i) :
    Host.scatter d (fun _ b => b) x idx upd i = x i := by
  rw [scatter_eq_foldl d x idx upd ri hri]
  exact foldl_step_of_not_hit ri upd i _ _ fun n _ => hi _

end Idealize.ShloMosaic.LibScatterSet
-- ==== Proof.LibConcatConst.lean ====
/-
  A concatenation all of whose pieces hold one constant.

  A concatenation read at an index is one of its pieces read at an index of that piece. So when every piece is
  the constant function `c`, the concatenation is `c` at every index, whichever piece the index falls in.
-/
import Idealize.ShloMosaic.PureOps.ShapeOps

namespace Idealize.ShloMosaic.LibConcatConst

open Idealize.ShloMosaic

/-- A concatenation of pieces that all hold the constant `c` holds `c` everywhere. -/
theorem concatenate_const {α : Type} (t : Shape) (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

end Idealize.ShloMosaic.LibConcatConst
-- ==== Proof.RefPlaced.lean ====
/-
  The reference computes the placed projection.

  The reference forms the projection  (L k · z b k) summed against U, plus mu, reshapes its 262144 columns to
  (channel, depth, row, column) of a 32-cube, and scatters it as ONE window into a zero 64-grid: the three start
  indices are the constant 16, every update axis is a window axis, so update (b, ch, d, h, w) lands on
  (b, ch, 16 + d, 16 + h, 16 + w). The landing map is injective and total, so the scatter has set semantics:
  an entry of the middle cube holds the update that lands on it, every other entry keeps the zero it held.
  The only algebra between the two sides is that  L k · z b k = z b k · L k  on the extended reals.
-/
import proofs.«182236_j807453852264_2_alg».proof.Proof.Gen.ReferenceIdeal.Read
import proofs.«182236_j807453852264_2_alg».proof.Proof.Spec
import proofs.«182236_j807453852264_2_alg».proof.Proof.LibScatterSet
import proofs.«182236_j807453852264_2_alg».proof.Proof.LibConcatConst

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Placement
open scoped BigOperators

/-! ## The scatter's one window -/

/-- The three start indices are all 16. -/
theorem starts_const (k : S3.Idx) : val_main_v12 (F := Ideal) k = 16#32 := by
  unfold val_main_v12
  refine LibConcatConst.concatenate_const S3 0
    [⟨S1, val_main_v9 (F := Ideal)⟩, ⟨S1, val_main_v10 (F := Ideal)⟩, ⟨S1, val_main_v11 (F := Ideal)⟩]
    concatenates_S1_S1_S1_S3_d0 (16#32) ?_ k
  intro p hp i
  simp only [List.mem_cons, List.mem_nil_iff, or_false] at hp
  rcases hp with rfl | rfl | rfl <;> rfl

/-- Every update axis is a window axis: the window coordinate on operand axis `a` is the update's own. -/
theorem window_eq (j : S32x8x32x32x32.Idx) (a : Fin 5) : (scatter_S32x8x64x64x64_S3_S32x8x32x32x32_01234_n_234_0).window j a = (j a).val := by
  fin_cases a <;> rfl

/-- The window starts at 0 on the batch and channel axes and at 16 on the three cube axes. -/
theorem start_eq (idx : IVec S3 32) (hidx : ∀ k, idx k = 16#32) (j : S32x8x32x32x32.Idx) (a : Fin 5) :
    (scatter_S32x8x64x64x64_S3_S32x8x32x32x32_01234_n_234_0).start j idx a = if a.val < 2 then 0 else 16 := by
  unfold ScatterDims.start
  fin_cases a
  · exact dif_neg (by decide)
  · exact dif_neg (by decide)
  · rw [dif_pos (by decide), hidx]; rfl
  · rw [dif_pos (by decide), hidx]; rfl
  · rw [dif_pos (by decide), hidx]; rfl

/-- Where update `j` lands: the same batch and channel, the cube cell moved by 16 on each axis. -/
def land (j : S32x8x32x32x32.Idx) : S32x8x64x64x64.Idx :=
  ix5 ⟨(j 0).val, (j 0).isLt⟩ ⟨(j 1).val, (j 1).isLt⟩
    ⟨16 + (j 2).val, by have h : (j 2).val < 32 := (j 2).isLt; omega⟩
    ⟨16 + (j 3).val, by have h : (j 3).val < 32 := (j 3).isLt; omega⟩
    ⟨16 + (j 4).val, by have h : (j 4).val < 32 := (j 4).isLt; omega⟩

theorem land_spec (idx : IVec S3 32) (hidx : ∀ k, idx k = 16#32) (j : S32x8x32x32x32.Idx) :
    (scatter_S32x8x64x64x64_S3_S32x8x32x32x32_01234_n_234_0).resultIdx? j idx = some (land j) := by
  have l0 : (j 0).val < 32 := (j 0).isLt
  have l1 : (j 1).val < 8 := (j 1).isLt
  have l2 : (j 2).val < 32 := (j 2).isLt
  have l3 : (j 3).val < 32 := (j 3).isLt
  have l4 : (j 4).val < 32 := (j 4).isLt
  unfold ScatterDims.resultIdx?
  have H : ∀ a : Fin 5, 0 ≤ (scatter_S32x8x64x64x64_S3_S32x8x32x32x32_01234_n_234_0).start j idx a + (scatter_S32x8x64x64x64_S3_S32x8x32x32x32_01234_n_234_0).window j a
      ∧ (scatter_S32x8x64x64x64_S3_S32x8x32x32x32_01234_n_234_0).start j idx a + (scatter_S32x8x64x64x64_S3_S32x8x32x32x32_01234_n_234_0).window j a < S32x8x64x64x64.size a := by
    intro a
    rw [start_eq idx hidx, window_eq]
    match a with
    | ⟨0, _⟩ => show 0 ≤ (if (0 : ℕ) < 2 then (0 : ℤ) else 16) + ((j 0).val : ℤ) ∧ (if (0 : ℕ) < 2 then (0 : ℤ) else 16) + ((j 0).val : ℤ) < (32 : ℕ); simp only [Nat.ofNat_pos, ↓reduceIte]; omega
    | ⟨1, _⟩ => show 0 ≤ (if (1 : ℕ) < 2 then (0 : ℤ) else 16) + ((j 1).val : ℤ) ∧ (if (1 : ℕ) < 2 then (0 : ℤ) else 16) + ((j 1).val : ℤ) < (8 : ℕ); simp only [Nat.one_lt_ofNat, ↓reduceIte]; omega
    | ⟨2, _⟩ => show 0 ≤ (if (2 : ℕ) < 2 then (0 : ℤ) else 16) + ((j 2).val : ℤ) ∧ (if (2 : ℕ) < 2 then (0 : ℤ) else 16) + ((j 2).val : ℤ) < (64 : ℕ); simp only [Nat.lt_irrefl, ↓reduceIte]; omega
    | ⟨3, _⟩ => show 0 ≤ (if (3 : ℕ) < 2 then (0 : ℤ) else 16) + ((j 3).val : ℤ) ∧ (if (3 : ℕ) < 2 then (0 : ℤ) else 16) + ((j 3).val : ℤ) < (64 : ℕ); simp only [show ¬ (3 : ℕ) < 2 by decide, ↓reduceIte]; omega
    | ⟨4, _⟩ => show 0 ≤ (if (4 : ℕ) < 2 then (0 : ℤ) else 16) + ((j 4).val : ℤ) ∧ (if (4 : ℕ) < 2 then (0 : ℤ) else 16) + ((j 4).val : ℤ) < (64 : ℕ); simp only [show ¬ (4 : ℕ) < 2 by decide, ↓reduceIte]; omega
  rw [dif_pos H]
  refine congrArg some (funext fun a => Fin.ext ?_)
  show ((scatter_S32x8x64x64x64_S3_S32x8x32x32x32_01234_n_234_0).start j idx a + (scatter_S32x8x64x64x64_S3_S32x8x32x32x32_01234_n_234_0).window j a).toNat = (land j a).val
  rw [start_eq idx hidx, window_eq]
  match a with
  | ⟨0, _⟩ => show ((if (0 : ℕ) < 2 then (0 : ℤ) else 16) + ((j 0).val : ℤ)).toNat = (j 0).val; simp only [Nat.ofNat_pos, ↓reduceIte]; omega
  | ⟨1, _⟩ => show ((if (1 : ℕ) < 2 then (0 : ℤ) else 16) + ((j 1).val : ℤ)).toNat = (j 1).val; simp only [Nat.one_lt_ofNat, ↓reduceIte]; omega
  | ⟨2, _⟩ => show ((if (2 : ℕ) < 2 then (0 : ℤ) else 16) + ((j 2).val : ℤ)).toNat = 16 + (j 2).val; simp only [Nat.lt_irrefl, ↓reduceIte]; omega
  | ⟨3, _⟩ => show ((if (3 : ℕ) < 2 then (0 : ℤ) else 16) + ((j 3).val : ℤ)).toNat = 16 + (j 3).val; simp only [show ¬ (3 : ℕ) < 2 by decide, ↓reduceIte]; omega
  | ⟨4, _⟩ => show ((if (4 : ℕ) < 2 then (0 : ℤ) else 16) + ((j 4).val : ℤ)).toNat = 16 + (j 4).val; simp only [show ¬ (4 : ℕ) < 2 by decide, ↓reduceIte]; omega

/-- Distinct updates land on distinct entries. -/
theorem land_injective : Function.Injective land := fun j j' h => by
  funext a
  refine Fin.ext ?_
  match a with
  | ⟨0, _⟩ => have := congrArg (fun i : S32x8x64x64x64.Idx => (i 0).val) h; exact this
  | ⟨1, _⟩ => have := congrArg (fun i : S32x8x64x64x64.Idx => (i 1).val) h; exact this
  | ⟨2, _⟩ => have e : 16 + (j 2).val = 16 + (j' 2).val := congrArg (fun i : S32x8x64x64x64.Idx => (i 2).val) h; show (j 2).val = (j' 2).val; omega
  | ⟨3, _⟩ => have e : 16 + (j 3).val = 16 + (j' 3).val := congrArg (fun i : S32x8x64x64x64.Idx => (i 3).val) h; show (j 3).val = (j' 3).val; omega
  | ⟨4, _⟩ => have e : 16 + (j 4).val = 16 + (j' 4).val := congrArg (fun i : S32x8x64x64x64.Idx => (i 4).val) h; show (j 4).val = (j' 4).val; omega

/-! ## The projection, reshaped to cube cells -/

/-- The reshaped projection at (b, ch, d, h, w) is the projection of row `b` at the cell's column. -/
theorem cube_apply (z : (⟨S32x64, .f32⟩ : BufTy).Contents (Elt Ideal)) (U : (⟨S64x262144, .f32⟩ : BufTy).Contents (Elt Ideal)) (L : (⟨S64, .f32⟩ : BufTy).Contents (Elt Ideal)) (mu : (⟨S262144, .f32⟩ : BufTy).Contents (Elt Ideal)) (j : S32x8x32x32x32.Idx) :
    val_main_v7 (F := Ideal) z U L mu j
      = proj z U L mu ⟨(j 0).val, (j 0).isLt⟩ (cell ⟨(j 1).val, (j 1).isLt⟩ ⟨(j 2).val, (j 2).isLt⟩ ⟨(j 3).val, (j 3).isLt⟩ ⟨(j 4).val, (j 4).isLt⟩) := by
  have l0 : (j 0).val < 32 := (j 0).isLt
  have l1 : (j 1).val < 8 := (j 1).isLt
  have l2 : (j 2).val < 32 := (j 2).isLt
  have l3 : (j 3).val < 32 := (j 3).isLt
  have l4 : (j 4).val < 32 := (j 4).isLt
  have hrow : ∀ k : Fin 64, lidx_main_v3 (idx_main_v7 j) k = ix2 (⟨(j 0).val, l0⟩ : Fin 32) k := fun k => funext fun a => Fin.ext (by
    match a with
    | ⟨0, _⟩ => show (((((j 0).val * 8 + (j 1).val) * 32 + (j 2).val) * 32 + (j 3).val) * 32 + (j 4).val) / 262144 = (j 0).val; omega
    | ⟨1, _⟩ => rfl)
  have hcol : ∀ k : Fin 64, ridx_main_v3 (idx_main_v7 j) k
      = ix2 k (cell ⟨(j 1).val, (j 1).isLt⟩ ⟨(j 2).val, (j 2).isLt⟩ ⟨(j 3).val, (j 3).isLt⟩ ⟨(j 4).val, (j 4).isLt⟩) := fun k => funext fun a => Fin.ext (by
    match a with
    | ⟨0, _⟩ => rfl
    | ⟨1, _⟩ => show (((((j 0).val * 8 + (j 1).val) * 32 + (j 2).val) * 32 + (j 3).val) * 32 + (j 4).val) % 262144 = (j 1).val * 32768 + (j 2).val * 1024 + (j 3).val * 32 + (j 4).val; omega)
  have hmu : idx_main_v4 (idx_main_v5 (idx_main_v7 j))
      = ix1 (cell ⟨(j 1).val, (j 1).isLt⟩ ⟨(j 2).val, (j 2).isLt⟩ ⟨(j 3).val, (j 3).isLt⟩ ⟨(j 4).val, (j 4).isLt⟩) := funext fun a => Fin.ext (by
    match a with
    | ⟨0, _⟩ => show (((((j 0).val * 8 + (j 1).val) * 32 + (j 2).val) * 32 + (j 3).val) * 32 + (j 4).val) % 262144 = (j 1).val * 32768 + (j 2).val * 1024 + (j 3).val * 32 + (j 4).val; omega)
  have hL : ∀ k : Fin 64, idx_main_v0 (idx_main_v1 (ix2 (⟨(j 0).val, l0⟩ : Fin 32) k)) = ix1 k := fun k => funext fun a => Fin.ext (by
    match a with
    | ⟨0, _⟩ => rfl)
  rw [val_main_v7_apply, val_main_v6_apply]
  show val_main_v3 (F := Ideal) z U L (idx_main_v7 j) + val_main_v5 (F := Ideal) mu (idx_main_v7 j) = _
  rw [val_main_v3_apply, val_main_v5_apply, val_main_v4_apply, hmu]
  unfold proj
  refine congrArg (· + mu (ix1 _)) (Finset.sum_congr rfl fun k _ => ?_)
  rw [hrow, hcol, val_main_v2_apply, val_main_v1_apply, val_main_v0_apply, hL]
  show L (ix1 k) * z (ix2 _ k) * U _ = z (ix2 _ k) * L (ix1 k) * U _
  rw [mul_comm (L (ix1 k))]

/-! ## The reference's result is the placed projection -/

theorem result_eq (z : (⟨S32x64, .f32⟩ : BufTy).Contents (Elt Ideal)) (U : (⟨S64x262144, .f32⟩ : BufTy).Contents (Elt Ideal)) (L : (⟨S64, .f32⟩ : BufTy).Contents (Elt Ideal)) (mu : (⟨S262144, .f32⟩ : BufTy).Contents (Elt Ideal)) : val_main_v13 (F := Ideal) z U L mu = placed z U L mu := by
  funext i
  have l0 : (i 0).val < 32 := (i 0).isLt
  have l1 : (i 1).val < 8 := (i 1).isLt
  unfold val_main_v13 placed
  by_cases hc : inCore (i 2).val ∧ inCore (i 3).val ∧ inCore (i 4).val
  · rw [dif_pos hc]
    have c2 := hc.1
    have c3 := hc.2.1
    have c4 := hc.2.2
    unfold inCore at c2 c3 c4
    have hij : land (ix5 (⟨(i 0).val, l0⟩ : Fin 32) (⟨(i 1).val, l1⟩ : Fin 8) (fromCorner _ hc.1) (fromCorner _ hc.2.1) (fromCorner _ hc.2.2)) = i :=
      funext fun a => Fin.ext (by
        match a with
        | ⟨0, _⟩ => rfl
        | ⟨1, _⟩ => rfl
        | ⟨2, _⟩ => show 16 + ((i 2).val - 16) = (i 2).val; omega
        | ⟨3, _⟩ => show 16 + ((i 3).val - 16) = (i 3).val; omega
        | ⟨4, _⟩ => show 16 + ((i 4).val - 16) = (i 4).val; omega)
    have key := LibScatterSet.scatter_set_hit (scatter_S32x8x64x64x64_S3_S32x8x32x32x32_01234_n_234_0) (val_main_v8 (F := Ideal)) (val_main_v12 (F := Ideal)) (val_main_v7 (F := Ideal) z U L mu)
      land (land_spec _ starts_const) land_injective
      (ix5 (⟨(i 0).val, l0⟩ : Fin 32) (⟨(i 1).val, l1⟩ : Fin 8) (fromCorner _ hc.1) (fromCorner _ hc.2.1) (fromCorner _ hc.2.2))
    rw [hij] at key
    rw [key, cube_apply]
  · rw [dif_neg hc]
    rw [LibScatterSet.scatter_set_miss (scatter_S32x8x64x64x64_S3_S32x8x32x32x32_01234_n_234_0) (val_main_v8 (F := Ideal)) (val_main_v12 (F := Ideal)) (val_main_v7 (F := Ideal) z U L mu)
      land (land_spec _ starts_const) i (fun j hj => hc (by
        have l2 : (j 2).val < 32 := (j 2).isLt
        have l3 : (j 3).val < 32 := (j 3).isLt
        have l4 : (j 4).val < 32 := (j 4).isLt
        have e2 : 16 + (j 2).val = (i 2).val := congrArg (fun i : S32x8x64x64x64.Idx => (i 2).val) hj
        have e3 : 16 + (j 3).val = (i 3).val := congrArg (fun i : S32x8x64x64x64.Idx => (i 3).val) hj
        have e4 : 16 + (j 4).val = (i 4).val := congrArg (fun i : S32x8x64x64x64.Idx => (i 4).val) hj
        unfold inCore
        omega))]
    rw [val_main_v8_apply, val_main_cst_apply]
    exact Ideal.ofBits_zero_f32

end Cert.ReferenceIdeal.RefValue

end
-- ==== Proof.lean ====
/-
  The kernel and its reference compute the same array: the projection  Σ_k (z b k · L k) · U k q + mu q,
  its 262144 columns read as the cells of 8 channels of a 32-cube, placed in the middle cube 16..47 of a zero
  32×8×64×64×64 grid (the function `Cert.Placement.placed`).

  The kernel walks a grid of 8 channels by 4 depth tiles. At depth tiles 1 and 2 it multiplies the scaled rows
  by the matching 16384 columns of U, adds the matching part of mu, and stores the result in the middle of a
  zero block; at depth tiles 0 and 3 it stores a zero block. Each block is the block of `placed`, and the 32
  blocks tile the result. The reference scatters the reshaped projection as one window at offset (16, 16, 16)
  into zeros, which is `placed` by the set semantics of a scatter with an injective landing map. At the exact
  values the narrowing of the operands is the identity and the two products differ only in the order of the
  factors  z b k · L k, so the claim needs no finiteness.

  The three programs terminate without fault and leave their arguments unchanged: for the two kernel programs
  by the body's run at each point under the pipeline's launch theorem (the same text at the word-level
  and at the exact instance), for the reference by its run read back. The idealization rewrote nothing.
-/
import proofs.«182236_j807453852264_2_alg».proof.Defs
import proofs.«182236_j807453852264_2_alg».proof.Proof.Gen.Kernel
import proofs.«182236_j807453852264_2_alg».proof.Proof.Gen.KernelIdeal
import proofs.«182236_j807453852264_2_alg».proof.Proof.Gen.ReferenceIdeal
import proofs.«182236_j807453852264_2_alg».proof.Proof.Gen.Pre_finite_inputs
import proofs.«182236_j807453852264_2_alg».proof.Proof.Gen.ReferenceIdeal.Read
import proofs.«182236_j807453852264_2_alg».proof.Proof.BitsBody
import proofs.«182236_j807453852264_2_alg».proof.Proof.IdealValue
import proofs.«182236_j807453852264_2_alg».proof.Proof.RefPlaced
import Idealize.ShloMosaic.Adequacy
import Idealize.ShloMosaic.Init

noncomputable section

namespace Cert.Proof

open Idealize.ShloMosaic Idealize.ShloMosaic.TcCoe Idealize.SL.Sem Cert.Placement

/-- The word-level kernel runs and keeps its arguments. -/
theorem frame_kernel : Cert.frame_Kernel := fun m ρ _ => Cert.Kernel.Body.frame (F := Bits) m ρ

/-- The idealized kernel runs and keeps its arguments. -/
theorem frame_ideal : Cert.frame_KernelIdeal := fun m ρ _ => Cert.KernelIdeal.Body.frame (F := Ideal) m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the placed projection. -/
theorem algebraic : Cert.algebraic_KernelIdeal_ReferenceIdeal := by
  intro m ρ m' ρ' _ hagree
  refine ⟨fun c => placed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Body.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
